-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x150000 : Shape := ⟨2, ![2, 150000]⟩
abbrev S10000 : Shape := ⟨1, ![10000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S512x512 .f32) (main_arg10 : FVec F S512 .f32) (main_arg11 : FVec F S512x128 .f32) (main_arg12 : FVec F S128 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg11
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S512 .f32) (main_arg7 : FVec F S512x512 .f32) (main_arg8 : FVec F S512 .f32) (main_arg9 : FVec F S512x512 .f32) (main_arg10 : FVec F S512 .f32) (main_arg11 : FVec F S512x128 .f32) (main_arg12 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S10000x128 .f32) (main_arg1 : IVec S2x150000 32) (main_arg2 : IVec S10000 32) (main_arg3 : FVec F S128x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x128 .f32) (main_arg12 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_v13 main_v16
-- ==== Kernel.lean ====
abbrev S10000x128 : Shape := ⟨2, ![10000, 128]⟩
abbrev S2x150000 : Shape := ⟨2, ![2, 150000]⟩
abbrev S10000 : Shape := ⟨1, ![10000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S1x150000 : Shape := ⟨2, ![1, 150000]⟩
abbrev S150000 : Shape := ⟨1, ![150000]⟩
abbrev S160000 : Shape := ⟨1, ![160000]⟩
abbrev S_ : Shape := ⟨0, ![]⟩
abbrev S160000x1 : Shape := ⟨2, ![160000, 1]⟩
abbrev S10000x512 : Shape := ⟨2, ![10000, 512]⟩
abbrev S1000x128 : Shape := ⟨2, ![1000, 128]⟩
abbrev S1000x512 : Shape := ⟨2, ![1000, 512]⟩
abbrev S160000x512 : Shape := ⟨2, ![160000, 512]⟩
abbrev S1x512 : Shape := ⟨2, ![1, 512]⟩
abbrev S160000x128 : Shape := ⟨2, ![160000, 128]⟩
abbrev S1x128 : Shape := ⟨2, ![1, 128]⟩
abbrev S64x128 : Shape := ⟨2, ![64, 128]⟩
abbrev S10000x1 : Shape := ⟨2, ![10000, 1]⟩
abbrev S64 : Shape := ⟨1, ![64]⟩
abbrev S64x1 : Shape := ⟨2, ![64, 1]⟩

abbrev nBuf : Space → Nat
  | .hbm => 190
  | .vmem => 25
  | .smem => 0
  | _ => 0

abbrev hbmTy0_0 (i : Nat) : BufTy := match i % 128 with
  | 0 => ⟨S10000x128, .f32⟩
  | 1 => ⟨S2x150000, .i32⟩
  | 2 => ⟨S10000, .i32⟩
  | 3 => ⟨S128x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x128, .f32⟩
  | 12 => ⟨S128, .f32⟩
  | 13 => ⟨S10000, .i32⟩
  | 14 => ⟨S1x150000, .i32⟩
  | 15 => ⟨S150000, .i32⟩
  | 16 => ⟨S160000, .i32⟩
  | 17 => ⟨S1x150000, .i32⟩
  | 18 => ⟨S150000, .i32⟩
  | 19 => ⟨S160000, .i32⟩
  | 20 => ⟨S_, .f32⟩
  | 21 => ⟨S160000, .f32⟩
  | 22 => ⟨S_, .f32⟩
  | 23 => ⟨S10000, .f32⟩
  | 24 => ⟨S160000x1, .i32⟩
  | 25 => ⟨S10000, .f32⟩
  | 26 => ⟨S_, .f32⟩
  | 27 => ⟨S10000, .f32⟩
  | 28 => ⟨S10000, .i1⟩
  | 29 => ⟨S10000, .f32⟩
  | 30 => ⟨S_, .f32⟩
  | 31 => ⟨S_, .f32⟩
  | 32 => ⟨S10000, .f32⟩
  | 33 => ⟨S10000, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000, .f32⟩
  | 52 => ⟨S160000, .f32⟩
  | 53 => ⟨S160000x1, .f32⟩
  | 54 => ⟨S10000x128, .bf16⟩
  | 55 => ⟨S128x512, .bf16⟩
  | 56 => ⟨S10000x512, .f32⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000x512, .f32⟩
  | 66 => ⟨S160000x512, .f32⟩
  | 67 => ⟨S160000x512, .f32⟩
  | 68 => ⟨S_, .f32⟩
  | 69 => ⟨S10000x512, .f32⟩
  | 70 => ⟨S160000x1, .i32⟩
  | 71 => ⟨S10000x512, .f32⟩
  | 72 => ⟨S1x512, .f32⟩
  | 73 => ⟨S10000x512, .f32⟩
  | 74 => ⟨S10000x512, .f32⟩
  | 75 => ⟨S_, .f32⟩
  | 76 => ⟨S10000x512, .f32⟩
  | 77 => ⟨S10000x512, .f32⟩
  | 78 => ⟨S10000x512, .bf16⟩
  | 79 => ⟨S512x512, .bf16⟩
  | 80 => ⟨S10000x512, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x512, .f32⟩
  | 90 => ⟨S160000x512, .f32⟩
  | 91 => ⟨S160000x512, .f32⟩
  | 92 => ⟨S_, .f32⟩
  | 93 => ⟨S10000x512, .f32⟩
  | 94 => ⟨S160000x1, .i32⟩
  | 95 => ⟨S10000x512, .f32⟩
  | 96 => ⟨S1x512, .f32⟩
  | 97 => ⟨S10000x512, .f32⟩
  | 98 => ⟨S10000x512, .f32⟩
  | 99 => ⟨S_, .f32⟩
  | 100 => ⟨S10000x512, .f32⟩
  | 101 => ⟨S10000x512, .f32⟩
  | 102 => ⟨S10000x512, .bf16⟩
  | 103 => ⟨S512x512, .bf16⟩
  | 104 => ⟨S10000x512, .f32⟩
  | 105 => ⟨S_, .i32⟩
  | 106 => ⟨S160000, .i32⟩
  | 107 => ⟨S160000, .i1⟩
  | 108 => ⟨S_, .i32⟩
  | 109 => ⟨S160000, .i32⟩
  | 110 => ⟨S160000, .i32⟩
  | 111 => ⟨S160000, .i32⟩
  | 112 => ⟨S160000x1, .i32⟩
  | 113 => ⟨S160000x512, .f32⟩
  | 114 => ⟨S160000x512, .f32⟩
  | 115 => ⟨S160000x512, .f32⟩
  | 116 => ⟨S_, .f32⟩
  | 117 => ⟨S10000x512, .f32⟩
  | 118 => ⟨S160000x1, .i32⟩
  | 119 => ⟨S10000x512, .f32⟩
  | 120 => ⟨S1x512, .f32⟩
  | 121 => ⟨S10000x512, .f32⟩
  | 122 => ⟨S10000x512, .f32⟩
  | 123 => ⟨S_, .f32⟩
  | 124 => ⟨S10000x512, .f32⟩
  | 125 => ⟨S10000x512, .f32⟩
  | 126 => ⟨S10000x512, .bf16⟩
  | 127 => ⟨S512x512, .bf16⟩
  | _ => ⟨S10000x128, .f32⟩

abbrev hbmTy0_1 (i : Nat) : BufTy := match i % 128 with
  | 0 => ⟨S10000x512, .f32⟩
  | 1 => ⟨S_, .i32⟩
  | 2 => ⟨S160000, .i32⟩
  | 3 => ⟨S160000, .i1⟩
  | 4 => ⟨S_, .i32⟩
  | 5 => ⟨S160000, .i32⟩
  | 6 => ⟨S160000, .i32⟩
  | 7 => ⟨S160000, .i32⟩
  | 8 => ⟨S160000x1, .i32⟩
  | 9 => ⟨S160000x512, .f32⟩
  | 10 => ⟨S160000x512, .f32⟩
  | 11 => ⟨S160000x512, .f32⟩
  | 12 => ⟨S_, .f32⟩
  | 13 => ⟨S10000x512, .f32⟩
  | 14 => ⟨S160000x1, .i32⟩
  | 15 => ⟨S10000x512, .f32⟩
  | 16 => ⟨S1x512, .f32⟩
  | 17 => ⟨S10000x512, .f32⟩
  | 18 => ⟨S10000x512, .f32⟩
  | 19 => ⟨S_, .f32⟩
  | 20 => ⟨S10000x512, .f32⟩
  | 21 => ⟨S10000x512, .f32⟩
  | 22 => ⟨S10000x512, .bf16⟩
  | 23 => ⟨S512x128, .bf16⟩
  | 24 => ⟨S10000x128, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x128, .f32⟩
  | 34 => ⟨S160000x128, .f32⟩
  | 35 => ⟨S160000x128, .f32⟩
  | 36 => ⟨S_, .f32⟩
  | 37 => ⟨S10000x128, .f32⟩
  | 38 => ⟨S160000x1, .i32⟩
  | 39 => ⟨S10000x128, .f32⟩
  | 40 => ⟨S1x128, .f32⟩
  | 41 => ⟨S10000x128, .f32⟩
  | 42 => ⟨S10000x128, .f32⟩
  | 43 => ⟨S_, .f32⟩
  | 44 => ⟨S10000x128, .f32⟩
  | 45 => ⟨S10000x128, .f32⟩
  | 46 => ⟨S_, .f32⟩
  | 47 => ⟨S64x128, .f32⟩
  | 48 => ⟨S10000x1, .i32⟩
  | 49 => ⟨S64x128, .f32⟩
  | 50 => ⟨S_, .f32⟩
  | 51 => ⟨S10000, .f32⟩
  | 52 => ⟨S_, .f32⟩
  | 53 => ⟨S64, .f32⟩
  | 54 => ⟨S10000x1, .i32⟩
  | 55 => ⟨S64, .f32⟩
  | 56 => ⟨S_, .f32⟩
  | 57 => ⟨S64, .f32⟩
  | 58 => ⟨S64, .f32⟩
  | 59 => ⟨S64x1, .f32⟩
  | 60 => ⟨S64x128, .f32⟩
  | 61 => ⟨S64x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .bf16⟩
  | .local _ .vmem, ⟨1, _⟩ => ⟨S1000x128, .bf16⟩
  | .local _ .vmem, ⟨2, _⟩ => ⟨S128x512, .bf16⟩
  | .local _ .vmem, ⟨3, _⟩ => ⟨S1000x512, .f32⟩
  | .local _ .vmem, ⟨4, _⟩ => ⟨S1000x512, .f32⟩
  | .local _ .vmem, ⟨5, _⟩ => ⟨S1000x512, .bf16⟩
  | .local _ .vmem, ⟨6, _⟩ => ⟨S1000x512, .bf16⟩
  | .local _ .vmem, ⟨7, _⟩ => ⟨S512x512, .bf16⟩
  | .local _ .vmem, ⟨8, _⟩ => ⟨S1000x512, .f32⟩
  | .local _ .vmem, ⟨9, _⟩ => ⟨S1000x512, .f32⟩
  | .local _ .vmem, ⟨10, _⟩ => ⟨S1000x512, .bf16⟩
  | .local _ .vmem, ⟨11, _⟩ => ⟨S1000x512, .bf16⟩
  | .local _ .vmem, ⟨12, _⟩ => ⟨S512x512, .bf16⟩
  | .local _ .vmem, ⟨13, _⟩ => ⟨S1000x512, .f32⟩
  | .local _ .vmem, ⟨14, _⟩ => ⟨S1000x512, .f32⟩
  | .local _ .vmem, ⟨15, _⟩ => ⟨S1000x512, .bf16⟩
  | .local _ .vmem, ⟨16, _⟩ => ⟨S1000x512, .bf16⟩
  | .local _ .vmem, ⟨17, _⟩ => ⟨S512x512, .bf16⟩
  | .local _ .vmem, ⟨18, _⟩ => ⟨S1000x512, .f32⟩
  | .local _ .vmem, ⟨19, _⟩ => ⟨S1000x512, .f32⟩
  | .local _ .vmem, ⟨20, _⟩ => ⟨S1000x512, .bf16⟩
  | .local _ .vmem, ⟨21, _⟩ => ⟨S1000x512, .bf16⟩
  | .local _ .vmem, ⟨22, _⟩ => ⟨S512x128, .bf16⟩
  | .local _ .vmem, ⟨23, _⟩ => ⟨S1000x128, .f32⟩
  | .local _ .vmem, ⟨24, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_cst : Ref sig .tc := ⟨.hbm, 99, rfl⟩
abbrev main_call2_v0 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_12 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call3_cst : Ref sig .tc := ⟨.hbm, 123, rfl⟩
abbrev main_call3_v0 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_15 : Ref sig .tc := ⟨.hbm, 129, rfl⟩
abbrev main_v91 : Ref sig .tc := ⟨.hbm, 130, rfl⟩
abbrev main_v92 : Ref sig .tc := ⟨.hbm, 131, rfl⟩
abbrev main_c_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_17 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_call4_cst : Ref sig .tc := ⟨.hbm, 147, rfl⟩
abbrev main_call4_v0 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_c_18 : Ref sig .tc := ⟨.hbm, 153, rfl⟩
abbrev main_v110 : Ref sig .tc := ⟨.hbm, 154, rfl⟩
abbrev main_v111 : Ref sig .tc := ⟨.hbm, 155, rfl⟩
abbrev main_c_19 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_20 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_call5_cst : Ref sig .tc := ⟨.hbm, 171, rfl⟩
abbrev main_call5_v0 : Ref sig .tc := ⟨.hbm, 172, rfl⟩
abbrev main_v125 : Ref sig .tc := ⟨.hbm, 173, rfl⟩
abbrev main_cst_21 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_22 : Ref sig .tc := ⟨.hbm, 178, rfl⟩
abbrev main_v129 : Ref sig .tc := ⟨.hbm, 179, rfl⟩
abbrev main_cst_23 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_24 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x150000_S1x150000_0_0 : S2x150000.Slices ![0, 0] S1x150000
  shapeCasts_S1x150000_S150000 : S1x150000.ShapeCasts S150000
  concatenates_S150000_S10000_S160000_d0 : Shape.Concatenates [S150000, S10000] S160000 0
  slices_S2x150000_S1x150000_1_0 : S2x150000.Slices ![1, 0] S1x150000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1000x512_S1000x512_0_0 : ∀ a, (![0, 0] : Fin 2 → Nat) a + S1000x512.size a ≤ S1000x512.size a
  h_S1000x512 : 0 < S1000x512.numel
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bcast_S160000x1_S160000x128_0_1 : S160000x1.BroadcastsInDim S160000x128 (![0, 1] : Fin 2 → Fin S160000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S1000x128_S128x512_S1000x512_1_0_0_1_n_n_wf : DotDims.WF S1000x128 S128x512 S1000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S1000x512_S512x512_S1000x512_1_0_0_1_n_n_wf : DotDims.WF S1000x512 S512x512 S1000x512 [1] [0] [0] [1] [] []
  dot_S1000x512_S512x128_S1000x128_1_0_0_1_n_n_wf : DotDims.WF S1000x512 S512x128 S1000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .bf16 = 32 ∨ (Rect.block (s := S10000x128) S1000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .bf16 = 32 ∨ (Rect.block (s := S10000x512) S1000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S10000x512.size a
  hwx1_2 : ∀ i : grid1.Coords, EltTy.bits .f32 = 32 ∨ (Rect.block (s := S10000x512) S1000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .bf16 = 32 ∨ (Rect.block (s := S10000x512) S1000x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S10000x512.size a
  hwx2_2 : ∀ i : grid2.Coords, EltTy.bits .f32 = 32 ∨ (Rect.block (s := S10000x512) S1000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S10000x512.size a
  hwx3_0 : ∀ i : grid3.Coords, EltTy.bits .bf16 = 32 ∨ (Rect.block (s := S10000x512) S1000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x512.size a ≤ S10000x512.size a
  hwx3_2 : ∀ i : grid3.Coords, EltTy.bits .f32 = 32 ∨ (Rect.block (s := S10000x512) S1000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S10000x512.size a
  hwx4_0 : ∀ i : grid4.Coords, EltTy.bits .bf16 = 32 ∨ (Rect.block (s := S10000x512) S1000x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .bf16 = 32 ∨ (Rect.block (s := S512x128) S512x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S10000x128.size a
  hwx4_2 : ∀ i : grid4.Coords, EltTy.bits .f32 = 32 ∨ (Rect.block (s := S10000x128) S1000x128.size (cc4_transform_2 i) (hinb4_2 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf

abbrev win0_0 : Pipeline.Window sig grid0 :=
  Pipeline.Window.ofSpec (Memref.whole main_v31) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v107) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v108) S512x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v109) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x150000 : Shape := ⟨2, ![2, 150000]⟩
abbrev S10000 : Shape := ⟨1, ![10000]⟩
abbrev S128x512 : Shape := ⟨2, ![128, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S1x150000 : Shape := ⟨2, ![1, 150000]⟩
abbrev S150000 : Shape := ⟨1, ![150000]⟩
abbrev S160000 : Shape := ⟨1, ![160000]⟩
abbrev S_ : Shape := ⟨0, ![]⟩
abbrev S160000x1 : Shape := ⟨2, ![160000, 1]⟩
abbrev S10000x512 : Shape := ⟨2, ![10000, 512]⟩
abbrev S160000x512 : Shape := ⟨2, ![160000, 512]⟩
abbrev S1x512 : Shape := ⟨2, ![1, 512]⟩
abbrev S160000x128 : Shape := ⟨2, ![160000, 128]⟩
abbrev S1x128 : Shape := ⟨2, ![1, 128]⟩
abbrev S64x128 : Shape := ⟨2, ![64, 128]⟩
abbrev S10000x1 : Shape := ⟨2, ![10000, 1]⟩
abbrev S64 : Shape := ⟨1, ![64]⟩
abbrev S64x1 : Shape := ⟨2, ![64, 1]⟩

abbrev nBuf : Space → Nat
  | .hbm => 180
  | .vmem => 0
  | .smem => 0
  | _ => 0

abbrev hbmTy0_0 (i : Nat) : BufTy := match i % 128 with
  | 0 => ⟨S10000x128, .f32⟩
  | 1 => ⟨S2x150000, .i32⟩
  | 2 => ⟨S10000, .i32⟩
  | 3 => ⟨S128x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x128, .f32⟩
  | 12 => ⟨S128, .f32⟩
  | 13 => ⟨S10000, .i32⟩
  | 14 => ⟨S1x150000, .i32⟩
  | 15 => ⟨S150000, .i32⟩
  | 16 => ⟨S160000, .i32⟩
  | 17 => ⟨S1x150000, .i32⟩
  | 18 => ⟨S150000, .i32⟩
  | 19 => ⟨S160000, .i32⟩
  | 20 => ⟨S_, .f32⟩
  | 21 => ⟨S160000, .f32⟩
  | 22 => ⟨S_, .f32⟩
  | 23 => ⟨S10000, .f32⟩
  | 24 => ⟨S160000x1, .i32⟩
  | 25 => ⟨S10000, .f32⟩
  | 26 => ⟨S_, .f32⟩
  | 27 => ⟨S10000, .f32⟩
  | 28 => ⟨S10000, .i1⟩
  | 29 => ⟨S10000, .f32⟩
  | 30 => ⟨S_, .f32⟩
  | 31 => ⟨S_, .f32⟩
  | 32 => ⟨S10000, .f32⟩
  | 33 => ⟨S10000, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000, .f32⟩
  | 52 => ⟨S160000, .f32⟩
  | 53 => ⟨S160000x1, .f32⟩
  | 54 => ⟨S10000x512, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x512, .f32⟩
  | 64 => ⟨S160000x512, .f32⟩
  | 65 => ⟨S160000x512, .f32⟩
  | 66 => ⟨S_, .f32⟩
  | 67 => ⟨S10000x512, .f32⟩
  | 68 => ⟨S160000x1, .i32⟩
  | 69 => ⟨S10000x512, .f32⟩
  | 70 => ⟨S1x512, .f32⟩
  | 71 => ⟨S10000x512, .f32⟩
  | 72 => ⟨S10000x512, .f32⟩
  | 73 => ⟨S_, .f32⟩
  | 74 => ⟨S10000x512, .f32⟩
  | 75 => ⟨S10000x512, .f32⟩
  | 76 => ⟨S10000x512, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S160000x512, .f32⟩
  | 86 => ⟨S160000x512, .f32⟩
  | 87 => ⟨S160000x512, .f32⟩
  | 88 => ⟨S_, .f32⟩
  | 89 => ⟨S10000x512, .f32⟩
  | 90 => ⟨S160000x1, .i32⟩
  | 91 => ⟨S10000x512, .f32⟩
  | 92 => ⟨S1x512, .f32⟩
  | 93 => ⟨S10000x512, .f32⟩
  | 94 => ⟨S10000x512, .f32⟩
  | 95 => ⟨S_, .f32⟩
  | 96 => ⟨S10000x512, .f32⟩
  | 97 => ⟨S10000x512, .f32⟩
  | 98 => ⟨S10000x512, .f32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x512, .f32⟩
  | 108 => ⟨S160000x512, .f32⟩
  | 109 => ⟨S160000x512, .f32⟩
  | 110 => ⟨S_, .f32⟩
  | 111 => ⟨S10000x512, .f32⟩
  | 112 => ⟨S160000x1, .i32⟩
  | 113 => ⟨S10000x512, .f32⟩
  | 114 => ⟨S1x512, .f32⟩
  | 115 => ⟨S10000x512, .f32⟩
  | 116 => ⟨S10000x512, .f32⟩
  | 117 => ⟨S_, .f32⟩
  | 118 => ⟨S10000x512, .f32⟩
  | 119 => ⟨S10000x512, .f32⟩
  | 120 => ⟨S10000x512, .f32⟩
  | 121 => ⟨S_, .i32⟩
  | 122 => ⟨S160000, .i32⟩
  | 123 => ⟨S160000, .i1⟩
  | 124 => ⟨S_, .i32⟩
  | 125 => ⟨S160000, .i32⟩
  | 126 => ⟨S160000, .i32⟩
  | 127 => ⟨S160000, .i32⟩
  | _ => ⟨S10000x128, .f32⟩

abbrev hbmTy0_1 (i : Nat) : BufTy := match i % 128 with
  | 0 => ⟨S160000x1, .i32⟩
  | 1 => ⟨S160000x512, .f32⟩
  | 2 => ⟨S160000x512, .f32⟩
  | 3 => ⟨S160000x512, .f32⟩
  | 4 => ⟨S_, .f32⟩
  | 5 => ⟨S10000x512, .f32⟩
  | 6 => ⟨S160000x1, .i32⟩
  | 7 => ⟨S10000x512, .f32⟩
  | 8 => ⟨S1x512, .f32⟩
  | 9 => ⟨S10000x512, .f32⟩
  | 10 => ⟨S10000x512, .f32⟩
  | 11 => ⟨S_, .f32⟩
  | 12 => ⟨S10000x512, .f32⟩
  | 13 => ⟨S10000x512, .f32⟩
  | 14 => ⟨S10000x128, .f32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S160000x128, .f32⟩
  | 24 => ⟨S160000x128, .f32⟩
  | 25 => ⟨S160000x128, .f32⟩
  | 26 => ⟨S_, .f32⟩
  | 27 => ⟨S10000x128, .f32⟩
  | 28 => ⟨S160000x1, .i32⟩
  | 29 => ⟨S10000x128, .f32⟩
  | 30 => ⟨S1x128, .f32⟩
  | 31 => ⟨S10000x128, .f32⟩
  | 32 => ⟨S10000x128, .f32⟩
  | 33 => ⟨S_, .f32⟩
  | 34 => ⟨S10000x128, .f32⟩
  | 35 => ⟨S10000x128, .f32⟩
  | 36 => ⟨S_, .f32⟩
  | 37 => ⟨S64x128, .f32⟩
  | 38 => ⟨S10000x1, .i32⟩
  | 39 => ⟨S64x128, .f32⟩
  | 40 => ⟨S_, .f32⟩
  | 41 => ⟨S10000, .f32⟩
  | 42 => ⟨S_, .f32⟩
  | 43 => ⟨S64, .f32⟩
  | 44 => ⟨S10000x1, .i32⟩
  | 45 => ⟨S64, .f32⟩
  | 46 => ⟨S_, .f32⟩
  | 47 => ⟨S64, .f32⟩
  | 48 => ⟨S64, .f32⟩
  | 49 => ⟨S64x1, .f32⟩
  | 50 => ⟨S64x128, .f32⟩
  | 51 => ⟨S64x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_cst : Ref sig .tc := ⟨.hbm, 95, rfl⟩
abbrev main_call2_v0 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call3_cst : Ref sig .tc := ⟨.hbm, 117, rfl⟩
abbrev main_call3_v0 : Ref sig .tc := ⟨.hbm, 118, rfl⟩
abbrev main_v81 : Ref sig .tc := ⟨.hbm, 119, rfl⟩
abbrev main_v82 : Ref sig .tc := ⟨.hbm, 120, rfl⟩
abbrev main_c_15 : Ref sig .tc := ⟨.hbm, 121, rfl⟩
abbrev main_v83 : Ref sig .tc := ⟨.hbm, 122, rfl⟩
abbrev main_v84 : Ref sig .tc := ⟨.hbm, 123, rfl⟩
abbrev main_c_16 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_17 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_call4_cst : Ref sig .tc := ⟨.hbm, 139, rfl⟩
abbrev main_call4_v0 : Ref sig .tc := ⟨.hbm, 140, rfl⟩
abbrev main_v98 : Ref sig .tc := ⟨.hbm, 141, rfl⟩
abbrev main_v99 : Ref sig .tc := ⟨.hbm, 142, rfl⟩
abbrev main_c_18 : Ref sig .tc := ⟨.hbm, 143, rfl⟩
abbrev main_v100 : Ref sig .tc := ⟨.hbm, 144, rfl⟩
abbrev main_v101 : Ref sig .tc := ⟨.hbm, 145, rfl⟩
abbrev main_c_19 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_20 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call5_cst : Ref sig .tc := ⟨.hbm, 161, rfl⟩
abbrev main_call5_v0 : Ref sig .tc := ⟨.hbm, 162, rfl⟩
abbrev main_v115 : Ref sig .tc := ⟨.hbm, 163, rfl⟩
abbrev main_cst_21 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_22 : Ref sig .tc := ⟨.hbm, 168, rfl⟩
abbrev main_v119 : Ref sig .tc := ⟨.hbm, 169, rfl⟩
abbrev main_cst_23 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_24 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  concatenates_S150000_S10000_S160000_d0 : Shape.Concatenates [S150000, S10000] S160000 0
  slices_S2x150000_S1x150000_1_0 : S2x150000.Slices ![1, 0] S1x150000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S160000x1_S160000x128_0_1 : S160000x1.BroadcastsInDim S160000x128 (![0, 1] : Fin 2 → Fin S160000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  dot_S10000x128_S128x512_S10000x512_1_0_0_1_n_n_wf : DotDims.WF S10000x128 S128x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []
  dot_S10000x512_S512x128_S10000x128_1_0_0_1_n_n_wf : DotDims.WF S10000x512 S512x128 S10000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf

class Facts : Prop extends Facts₀ where

variable [Facts]
-- ==== Proof.KernelRun.lean ====
/-
  The idealized kernel's run, with every buffer named. @main is eighteen stretches of host operations and five tiled
  matrix products, run in order on the one TensorCore. Whatever the launch memory, every weakly fair execution
  terminates without a fault, and each buffer that outlives the kernels ends holding what the fold through @main
  leaves in it: a host stretch leaves its operations' results, a matrix-product region leaves in its three arrays
  what its write-backs leave and everything else as it found it. That last valuation is `Gen.W23 m ρ c`; the result
  buffer and the thirteen argument buffers are read off it.
-/
import proofs.«142247_j68324339745256_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h => h)

/-- The same run read at the result buffer and at the arguments: the result holds the last boundary's contents of
    its buffer, and no argument has changed. -/
theorem run_result : θ_run defs (onTc (τ := τ) (main (F := F))) ⟨m, fun _ => 0, ρ⟩ (fun r => ∀ c : Dev nD,
      r.2.mem ((c.tc : Thread nD τ).loc main_v137) = W23 m ρ c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v137 (by decide)),
     (h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c)⟩)
    (run_all m ρ)

end Cert.KernelIdeal.Whole

end
-- ==== Proof.Fold0.lean ====
/-
  The kernel's @main before its first matrix product. The host operations there build, from the edge list alone, the
  message sources (the first row of the edge list followed by 0 … 9999: every node also sends to itself), the targets
  (the second row, followed likewise), and the edge weights  d(src)^(-1/2) · d(dst)^(-1/2)  with d the number of
  messages a node receives; and they hand the first product its two factors, the node features and the first weight
  matrix, each through a change of float format that is the identity on the extended reals. These are operation for
  operation the reference's first stages, so at the first region's entry each of these buffers holds the
  reference's stage of the same name, and the arguments still hold what they were launched with.
-/
import proofs.«142247_j68324339745256_1_alg».proof.Proof.Gen.KernelIdeal.Frame
import proofs.«142247_j68324339745256_1_alg».proof.Proof.RefRead

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A change of float format is the identity on the extended reals. -/
theorem format_id {S : Shape} (x : S.Idx → EReal) (h : (FTy.bf16).bits < (FTy.f32).bits) :
    (truncf (F := Ideal) (φ := .f32) .bf16 x h : S.Idx → EReal) = x := rfl

/-! ## After the first stretch: sources, targets, and the node degrees' two readings -/

theorem at1_v3 : (W1 m ρ c (Proc.devRef .tc main_v3) : S160000.Idx → BitVec 32) = Cert.ReferenceIdeal.ReadP.val_main_v3 (F := Ideal) (m ((c : Thread nD τ).loc main_arg1)) := by
  after_results_simp <;> rfl

theorem at1_v6 : (W1 m ρ c (Proc.devRef .tc main_v6) : S160000.Idx → BitVec 32) = Cert.ReferenceIdeal.ReadP.val_main_v6 (F := Ideal) (m ((c : Thread nD τ).loc main_arg1)) := by
  after_results_simp <;> rfl

/-- Which nodes receive a message at all (degree above zero). -/
theorem at1_v12 : (W1 m ρ c (Proc.devRef .tc main_v12) : S10000.Idx → BitVec 1) = Cert.ReferenceIdeal.ReadP.val_main_v12 (F := Ideal) (m ((c : Thread nD τ).loc main_arg1)) := by
  after_results_simp <;> rfl

/-- The degrees' inverse square roots. -/
theorem at1_v13 : (W1 m ρ c (Proc.devRef .tc main_v13) : S10000.Idx → EReal) = Cert.ReferenceIdeal.ReadP.val_main_v13 (F := Ideal) (m ((c : Thread nD τ).loc main_arg1)) := by
  after_results_simp <;> rfl

theorem at1_cst_2 : (W1 m ρ c (Proc.devRef .tc main_cst_2) : S_.Idx → EReal) = Cert.ReferenceIdeal.ReadP.val_main_cst_2 (F := Ideal) := by
  after_results_simp <;> rfl

/-! ## After the selection: the per-node factor d^(-1/2), zero at a node that receives nothing -/

theorem at2_v14 : (W2 m ρ c (Proc.devRef .tc main_v14) : S10000.Idx → EReal) = Cert.ReferenceIdeal.ReadP.val_main_v14 (F := Ideal) (m ((c : Thread nD τ).loc main_arg1)) := by
  have h12 := at1_v12 m ρ c
  have h13 := at1_v13 m ρ c
  have hc := at1_cst_2 m ρ c
  show StableHlo.after hostOps0_1 (W1 m ρ c) (Proc.devRef .tc main_v14) = _
  generalize W1 m ρ c = V at h12 h13 hc ⊢
  after_results_simp
  simp only [cast_eq]
  rw [h12, h13, hc]
  rfl

theorem at2_v3 : (W2 m ρ c (Proc.devRef .tc main_v3) : S160000.Idx → BitVec 32) = Cert.ReferenceIdeal.ReadP.val_main_v3 (F := Ideal) (m ((c : Thread nD τ).loc main_arg1)) := by
  have h := at1_v3 m ρ c
  show StableHlo.after hostOps0_1 (W1 m ρ c) (Proc.devRef .tc main_v3) = _
  generalize W1 m ρ c = V at h ⊢
  after_results_simp
  exact h

theorem at2_v6 : (W2 m ρ c (Proc.devRef .tc main_v6) : S160000.Idx → BitVec 32) = Cert.ReferenceIdeal.ReadP.val_main_v6 (F := Ideal) (m ((c : Thread nD τ).loc main_arg1)) := by
  have h := at1_v6 m ρ c
  show StableHlo.after hostOps0_1 (W1 m ρ c) (Proc.devRef .tc main_v6) = _
  generalize W1 m ρ c = V at h ⊢
  after_results_simp
  exact h

/-! ## At the first region's entry -/

theorem at3_v3 : (W3 m ρ c (Proc.devRef .tc main_v3) : S160000.Idx → BitVec 32) = Cert.ReferenceIdeal.ReadP.val_main_v3 (F := Ideal) (m ((c : Thread nD τ).loc main_arg1)) := by
  have h := at2_v3 m ρ c
  show StableHlo.after hostOps0_2 (W2 m ρ c) (Proc.devRef .tc main_v3) = _
  generalize W2 m ρ c = V at h ⊢
  after_results_simp
  exact h

theorem at3_v6 : (W3 m ρ c (Proc.devRef .tc main_v6) : S160000.Idx → BitVec 32) = Cert.ReferenceIdeal.ReadP.val_main_v6 (F := Ideal) (m ((c : Thread nD τ).loc main_arg1)) := by
  have h := at2_v6 m ρ c
  show StableHlo.after hostOps0_2 (W2 m ρ c) (Proc.devRef .tc main_v6) = _
  generalize W2 m ρ c = V at h ⊢
  after_results_simp
  exact h

/-- The edge weights d(src)^(-1/2) · d(dst)^(-1/2), as a column. -/
theorem at3_v30 : (W3 m ρ c (Proc.devRef .tc main_v30) : S160000x1.Idx → EReal) = Cert.ReferenceIdeal.ReadP.val_main_v30 (F := Ideal) (m ((c : Thread nD τ).loc main_arg1)) := by
  have h14 := at2_v14 m ρ c
  have h3 := at2_v3 m ρ c
  have h6 := at2_v6 m ρ c
  show StableHlo.after hostOps0_2 (W2 m ρ c) (Proc.devRef .tc main_v30) = _
  generalize W2 m ρ c = V at h14 h3 h6 ⊢
  after_results_simp
  rw [h14, h3, h6]
  rfl

theorem at3_v31 : (W3 m ρ c (Proc.devRef .tc main_v31) : S10000x128.Idx → EReal) = (m ((c : Thread nD τ).loc main_arg0)) := by
  after_results_simp <;> rfl

theorem at3_v32 : (W3 m ρ c (Proc.devRef .tc main_v32) : S128x512.Idx → EReal) = (m ((c : Thread nD τ).loc main_arg3)) := by
  after_results_simp <;> rfl

theorem at3_arg2 : (W3 m ρ c (Proc.devRef .tc main_arg2) : S10000.Idx → BitVec 32) = (m ((c : Thread nD τ).loc main_arg2)) := by
  after_results_simp <;> rfl

theorem at3_arg4 : (W3 m ρ c (Proc.devRef .tc main_arg4) : S512.Idx → EReal) = (m ((c : Thread nD τ).loc main_arg4)) := by
  after_results_simp <;> rfl

theorem at3_arg5 : (W3 m ρ c (Proc.devRef .tc main_arg5) : S512x512.Idx → EReal) = (m ((c : Thread nD τ).loc main_arg5)) := by
  after_results_simp <;> rfl

theorem at3_arg6 : (W3 m ρ c (Proc.devRef .tc main_arg6) : S512.Idx → EReal) = (m ((c : Thread nD τ).loc main_arg6)) := by
  after_results_simp <;> rfl

theorem at3_arg7 : (W3 m ρ c (Proc.devRef .tc main_arg7) : S512x512.Idx → EReal) = (m ((c : Thread nD τ).loc main_arg7)) := by
  after_results_simp <;> rfl

theorem at3_arg8 : (W3 m ρ c (Proc.devRef .tc main_arg8) : S512.Idx → EReal) = (m ((c : Thread nD τ).loc main_arg8)) := by
  after_results_simp <;> rfl

theorem at3_arg9 : (W3 m ρ c (Proc.devRef .tc main_arg9) : S512x512.Idx → EReal) = (m ((c : Thread nD τ).loc main_arg9)) := by
  after_results_simp <;> rfl

theorem at3_arg10 : (W3 m ρ c (Proc.devRef .tc main_arg10) : S512.Idx → EReal) = (m ((c : Thread nD τ).loc main_arg10)) := by
  after_results_simp <;> rfl

theorem at3_arg11 : (W3 m ρ c (Proc.devRef .tc main_arg11) : S512x128.Idx → EReal) = (m ((c : Thread nD τ).loc main_arg11)) := by
  after_results_simp <;> rfl

theorem at3_arg12 : (W3 m ρ c (Proc.devRef .tc main_arg12) : S128.Idx → EReal) = (m ((c : Thread nD τ).loc main_arg12)) := by
  after_results_simp <;> rfl

end Cert.KernelIdeal.Fold

end
-- ==== Proof.Tile0.lean ====
/-
  Region 0 of the kernel's @main is a matrix product tiled over rows. Its grid has ten points; point `t` fetches
  rows 1000·t … 1000·t + 999 of the left array (all 128 columns), the whole right array (128 × 512), multiplies them on
  the matrix unit into a zero accumulator, and writes the 1000 × 512 result back as rows 1000·t … 1000·t + 999 of the
  output. At the ideal instance an entry of a block product is the plain sum over the contracted axis, so the entry
  (r, q) of the output array ends at  ∑ₖ A(r, k) · B(k, q)  — the sum that defines the whole product A · B — whatever
  the region finds in its two input arrays. The ten row blocks tile the 10000 rows, so this holds at every entry.
-/
import proofs.«142247_j68324339745256_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Tile0

open Cert.KernelIdeal Cert.KernelIdeal.Gen Idealize.ShloMosaic Idealize.ShloMosaic.TcCoe Idealize.SL.Sem
open Idealize.ShloMosaic.Pipeline (Dat)

/-! ## The product, entry by entry -/

/-- The left factor's index (row of `i`, column `k`). -/
abbrev rowAt (i : S10000x512.Idx) (k : Fin 128) : S10000x128.Idx := fun a => match a with
  | ⟨0, _⟩ => ⟨(i 0).val, (i 0).isLt⟩
  | ⟨1, _⟩ => ⟨k.val, k.isLt⟩
/-- The right factor's index (row `k`, column of `i`). -/
abbrev colAt (i : S10000x512.Idx) (k : Fin 128) : S128x512.Idx := fun a => match a with
  | ⟨0, _⟩ => ⟨k.val, k.isLt⟩
  | ⟨1, _⟩ => ⟨(i 1).val, (i 1).isLt⟩

/-- The whole product A · B of a 10000 × 128 array and a 128 × 512 array: entry `i` is ∑ₖ A(i₀, k) · B(k, i₁). -/
def product (A : S10000x128.Idx → EReal) (B : S128x512.Idx → EReal) : S10000x512.Idx → EReal :=
  fun i => ∑ k : Fin 128, A (rowAt i k) * B (colAt i k)

/-! ## One block product at an entry -/

/-- Inside a block: the left block's index (row of `j`, column `k`) and the right array's (row `k`, column of `j`). -/
abbrev bRow (j : S1000x512.Idx) (k : Fin 128) : S1000x128.Idx := fun a => match a with
  | ⟨0, _⟩ => ⟨(j 0).val, (j 0).isLt⟩
  | ⟨1, _⟩ => ⟨k.val, k.isLt⟩
abbrev bCol (j : S1000x512.Idx) (k : Fin 128) : S128x512.Idx := fun a => match a with
  | ⟨0, _⟩ => ⟨k.val, k.isLt⟩
  | ⟨1, _⟩ => ⟨(j 1).val, (j 1).isLt⟩

theorem lhs_0 (j : S1000x512.Idx) (q : dot_S1000x128_S128x512_S1000x512_1_0_0_1_n_n.contr.Idx) : (dot_S1000x128_S128x512_S1000x512_1_0_0_1_n_n.lhsIdx j q 0).val = (j 0).val := by
  unfold DotDims.lhsIdx
  rw [dif_neg (show ¬(0 : Fin S1000x128.rank) ∈ dot_S1000x128_S128x512_S1000x512_1_0_0_1_n_n.lhsBatch by decide), dif_pos (show (0 : Fin S1000x128.rank) ∈ dot_S1000x128_S128x512_S1000x512_1_0_0_1_n_n.lhsNonContracting by decide)]
  rfl
theorem lhs_1 (j : S1000x512.Idx) (q : dot_S1000x128_S128x512_S1000x512_1_0_0_1_n_n.contr.Idx) : (dot_S1000x128_S128x512_S1000x512_1_0_0_1_n_n.lhsIdx j q 1).val = (q ⟨0, by decide⟩).val :=
  dot_S1000x128_S128x512_S1000x512_1_0_0_1_n_n.lhsIdx_val_of_single rfl j q
theorem rhs_0 (j : S1000x512.Idx) (q : dot_S1000x128_S128x512_S1000x512_1_0_0_1_n_n.contr.Idx) : (dot_S1000x128_S128x512_S1000x512_1_0_0_1_n_n.rhsIdx j q 0).val = (q ⟨0, by decide⟩).val :=
  dot_S1000x128_S128x512_S1000x512_1_0_0_1_n_n.rhsIdx_val_of_single rfl j q
theorem rhs_1 (j : S1000x512.Idx) (q : dot_S1000x128_S128x512_S1000x512_1_0_0_1_n_n.contr.Idx) : (dot_S1000x128_S128x512_S1000x512_1_0_0_1_n_n.rhsIdx j q 1).val = (j 1).val := by
  unfold DotDims.rhsIdx
  rw [dif_neg (show ¬(1 : Fin S128x512.rank) ∈ dot_S1000x128_S128x512_S1000x512_1_0_0_1_n_n.rhsBatch by decide), dif_pos (show (1 : Fin S128x512.rank) ∈ dot_S1000x128_S128x512_S1000x512_1_0_0_1_n_n.rhsNonContracting by decide)]
  rfl

/-- The body's stored value at entry `j` of its block: the matrix unit's product into the zero accumulator is the sum
    over the contracted axis of left block entry times right array entry. -/
theorem payload_apply (x0 : Vec Ideal S1000x128 .bf16) (x1 : Vec Ideal S128x512 .bf16) (j : S1000x512.Idx) :
    k0_pay1 (F := Ideal) x0 x1 j = ∑ k : Fin 128, (x0 (bRow j k) : EReal) * (x1 (bCol j k) : EReal) := by
  unfold k0_pay1
  rw [shapeCast_self, shapeCast_self]
  refine (Ideal.matmul_constant_zero_apply (φ₁ := FTy.bf16) (φ₂ := FTy.bf16) dot_S1000x128_S128x512_S1000x512_1_0_0_1_n_n none x0 x1 j).trans ?_
  rw [← Equiv.sum_comp (ValueIdx.contrEquiv1 dot_S1000x128_S128x512_S1000x512_1_0_0_1_n_n 128 rfl rfl).symm]
  refine Finset.sum_congr rfl fun k _ => ?_
  have hk := ValueIdx.contrEquiv1_symm_val dot_S1000x128_S128x512_S1000x512_1_0_0_1_n_n 128 rfl rfl k
  have el : dot_S1000x128_S128x512_S1000x512_1_0_0_1_n_n.lhsIdx j ((ValueIdx.contrEquiv1 dot_S1000x128_S128x512_S1000x512_1_0_0_1_n_n 128 rfl rfl).symm k) = bRow j k := funext fun a => Fin.ext (by
    match a with
    | ⟨0, _⟩ => exact lhs_0 _ _
    | ⟨1, _⟩ => exact (lhs_1 _ _).trans hk)
  have er : dot_S1000x128_S128x512_S1000x512_1_0_0_1_n_n.rhsIdx j ((ValueIdx.contrEquiv1 dot_S1000x128_S128x512_S1000x512_1_0_0_1_n_n 128 rfl rfl).symm k) = bCol j k := funext fun a => Fin.ext (by
    match a with
    | ⟨0, _⟩ => exact (rhs_0 _ _).trans hk
    | ⟨1, _⟩ => exact rhs_1 _ _)
  rw [el, er]

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output window move together down the rows and stay
    at column block 0; the right window stays at block (0, 0); the output's row block is the point's number. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the whole product of the two arrays as the region finds them. -/
theorem flushed_eq (c : Dev nD) (t : Fin cfg0.N) :
    (dat0 V c).flushed 2 t = ((cfg0.win 2).blk t).view.read (Elt Ideal) (product (V c main_v31) (V c main_v32)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x512) hz]
  obtain ⟨e0, e1, e2, e3, e4, e5⟩ := index_facts t
  funext j
  refine (payload_apply (iblk0 V c 0 t) (iblk0 V c 1 t) j).trans ?_
  show _ = product (V c main_v31) (V c main_v32) (((cfg0.win 2).blk t).view.emb j)
  unfold product
  refine Finset.sum_congr rfl fun k _ => ?_
  have hl : @Eq EReal (iblk0 V c 0 t (bRow j k)) (V c main_v31 (rowAt (((cfg0.win 2).blk t).view.emb j) k)) := by
    show @Eq EReal (V c main_v31 (((cfg0.win 0).blk t).view.emb (bRow j k))) (V c main_v31 (rowAt (((cfg0.win 2).blk t).view.emb j) k))
    refine congrArg (V c main_v31) (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 128 + 1 * k.val = k.val; omega
  have hr : @Eq EReal (iblk0 V c 1 t (bCol j k)) (V c main_v32 (colAt (((cfg0.win 2).blk t).view.emb j) k)) := by
    show @Eq EReal (V c main_v32 (((cfg0.win 1).blk t).view.emb (bCol j k))) (V c main_v32 (colAt (((cfg0.win 2).blk t).view.emb j) k))
    refine congrArg (V c main_v32) (funext fun a => Fin.ext ?_)
    match a with
    | ⟨0, _⟩ => show win0_1.index t (0 : Fin 2) * 128 + 1 * k.val = k.val; omega
    | ⟨1, _⟩ => show win0_1.index t (1 : Fin 2) * 512 + 1 * (j 1).val = win0_2.index t (1 : Fin 2) * 512 + 1 * (j 1).val; omega
  exact congrArg₂ (fun a b : EReal => a * b) hl hr

/-- An index of the output array is in point `t`'s block iff each coordinate is in the block's range on its axis. -/
theorem mem_block (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v33).slice (win0_2.rect t)).set ↔ _
  rw [View.set_slice_whole, Rect.mem_set_unit]
  exact Iff.rfl

/-- Every entry of the output is in some point's block: row `r` is in block `r / 1000`. -/
theorem cover (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 10 := N_0
  refine ⟨⟨(i 0).val / 1000, by rw [hN]; omega⟩, flush0_2 _, ?_⟩
  rw [mem_block]
  obtain ⟨e0, e1, e2, e3, e4, e5⟩ := index_facts ⟨(i 0).val / 1000, by rw [hN]; omega⟩
  intro a
  match a with
  | ⟨0, _⟩ =>
    show win0_2.index _ (0 : Fin 2) * 1000 ≤ (i 0).val ∧ (i 0).val < win0_2.index _ (0 : Fin 2) * 1000 + 1000
    rw [e5]; show (i 0).val / 1000 * 1000 ≤ (i 0).val ∧ (i 0).val < (i 0).val / 1000 * 1000 + 1000; omega
  | ⟨1, _⟩ =>
    show win0_2.index _ (1 : Fin 2) * 512 ≤ (i 1).val ∧ (i 1).val < win0_2.index _ (1 : Fin 2) * 512 + 512
    rw [e4]; omega

/-- THE ARRAY the region leaves in its output: the whole product of its two input arrays as it finds them. -/
theorem array_eq (c : Dev nD) :
    (dat0 V c).arrAt 2 cfg0.N = product (V c main_v31) (V c main_v32) :=
  (dat0 V c).arrAt_eq_of_cover 2 (product (V c main_v31) (V c main_v32)) (fun t _ => flushed_eq V c t) cover

end Cert.KernelIdeal.Tile0

end
-- ==== Proof.Fold1.lean ====
/-
  Layer 1 of the kernel's @main. Region 0 leaves in its output array the whole product of the two arrays it
  finds (the tiling lemma); at the region's entry those held the node features and the first weight matrix, so the
  output is the reference's matrix product of this layer, entry by entry the same sum over the contracted axis.
  Every other buffer passes the region unchanged. The host operations that follow — gather the rows of the product at
  the message sources, scale each by its edge weight, add them up at the targets, add the bias, clamp at zero, and
  hand the next product its factors through the identity change of format — are
  operation for operation the reference's, so each buffer that is read later holds the reference's stage of the
  same value.
-/
import proofs.«142247_j68324339745256_1_alg».proof.Proof.Fold0
import proofs.«142247_j68324339745256_1_alg».proof.Proof.Tile0

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At region 0's exit -/

/-- The region's output is the reference's product stage: both are, at every entry, the sum over the contracted axis
    of left entry times right entry. -/
theorem at4_out : (W4 m ρ c (Proc.devRef .tc main_v33) : S10000x512.Idx → EReal) = Cert.ReferenceIdeal.ReadP.val_main_v31 (F := Ideal) (m ((c : Thread nD τ).loc main_arg0)) (m ((c : Thread nD τ).loc main_arg3)) := by
  refine (W4_arr m ρ c 2).trans ?_
  refine (Cert.KernelIdeal.Tile0.array_eq (V3 m ρ) c).trans ?_
  show Cert.KernelIdeal.Tile0.product (W3 m ρ c (Proc.devRef .tc main_v31)) (W3 m ρ c (Proc.devRef .tc main_v32)) = _
  rw [at3_v31 m ρ c, at3_v32 m ρ c]
  funext i
  rw [Cert.ReferenceIdeal.ReadP.val_main_v31_apply]
  rfl

theorem at4_v3 : (W4 m ρ c (Proc.devRef .tc main_v3) : S160000.Idx → BitVec 32) = Cert.ReferenceIdeal.ReadP.val_main_v3 (F := Ideal) (m ((c : Thread nD τ).loc main_arg1)) :=
  (W4_of_ne m ρ c main_v3 (by decide)).trans (at3_v3 m ρ c)

theorem at4_v6 : (W4 m ρ c (Proc.devRef .tc main_v6) : S160000.Idx → BitVec 32) = Cert.ReferenceIdeal.ReadP.val_main_v6 (F := Ideal) (m ((c : Thread nD τ).loc main_arg1)) :=
  (W4_of_ne m ρ c main_v6 (by decide)).trans (at3_v6 m ρ c)

theorem at4_v30 : (W4 m ρ c (Proc.devRef .tc main_v30) : S160000x1.Idx → EReal) = Cert.ReferenceIdeal.ReadP.val_main_v30 (F := Ideal) (m ((c : Thread nD τ).loc main_arg1)) :=
  (W4_of_ne m ρ c main_v30 (by decide)).trans (at3_v30 m ρ c)

theorem at4_arg2 : (W4 m ρ c (Proc.devRef .tc main_arg2) : S10000.Idx → BitVec 32) = (m ((c : Thread nD τ).loc main_arg2)) :=
  (W4_of_ne m ρ c main_arg2 (by decide)).trans (at3_arg2 m ρ c)

theorem at4_arg4 : (W4 m ρ c (Proc.devRef .tc main_arg4) : S512.Idx → EReal) = (m ((c : Thread nD τ).loc main_arg4)) :=
  (W4_of_ne m ρ c main_arg4 (by decide)).trans (at3_arg4 m ρ c)

theorem at4_arg5 : (W4 m ρ c (Proc.devRef .tc main_arg5) : S512x512.Idx → EReal) = (m ((c : Thread nD τ).loc main_arg5)) :=
  (W4_of_ne m ρ c main_arg5 (by decide)).trans (at3_arg5 m ρ c)

theorem at4_arg6 : (W4 m ρ c (Proc.devRef .tc main_arg6) : S512.Idx → EReal) = (m ((c : Thread nD τ).loc main_arg6)) :=
  (W4_of_ne m ρ c main_arg6 (by decide)).trans (at3_arg6 m ρ c)

theorem at4_arg7 : (W4 m ρ c (Proc.devRef .tc main_arg7) : S512x512.Idx → EReal) = (m ((c : Thread nD τ).loc main_arg7)) :=
  (W4_of_ne m ρ c main_arg7 (by decide)).trans (at3_arg7 m ρ c)

theorem at4_arg8 : (W4 m ρ c (Proc.devRef .tc main_arg8) : S512.Idx → EReal) = (m ((c : Thread nD τ).loc main_arg8)) :=
  (W4_of_ne m ρ c main_arg8 (by decide)).trans (at3_arg8 m ρ c)

theorem at4_arg9 : (W4 m ρ c (Proc.devRef .tc main_arg9) : S512x512.Idx → EReal) = (m ((c : Thread nD τ).loc main_arg9)) :=
  (W4_of_ne m ρ c main_arg9 (by decide)).trans (at3_arg9 m ρ c)

theorem at4_arg10 : (W4 m ρ c (Proc.devRef .tc main_arg10) : S512.Idx → EReal) = (m ((c : Thread nD τ).loc main_arg10)) :=
  (W4_of_ne m ρ c main_arg10 (by decide)).trans (at3_arg10 m ρ c)

theorem at4_arg11 : (W4 m ρ c (Proc.devRef .tc main_arg11) : S512x128.Idx → EReal) = (m ((c : Thread nD τ).loc main_arg11)) :=
  (W4_of_ne m ρ c main_arg11 (by decide)).trans (at3_arg11 m ρ c)

theorem at4_arg12 : (W4 m ρ c (Proc.devRef .tc main_arg12) : S128.Idx → EReal) = (m ((c : Thread nD τ).loc main_arg12)) :=
  (W4_of_ne m ρ c main_arg12 (by decide)).trans (at3_arg12 m ρ c)

/-! ## At region 1's entry -/

theorem at7_v3 : (W7 m ρ c (Proc.devRef .tc main_v3) : S160000.Idx → BitVec 32) = Cert.ReferenceIdeal.ReadP.val_main_v3 (F := Ideal) (m ((c : Thread nD τ).loc main_arg1)) := by
  have h := at4_v3 m ρ c
  show StableHlo.after hostOps1_2 (StableHlo.after hostOps1_1 (StableHlo.after hostOps1 (W4 m ρ c))) (Proc.devRef .tc main_v3) = _
  generalize W4 m ρ c = V at h ⊢
  after_results_simp
  exact h

theorem at7_v6 : (W7 m ρ c (Proc.devRef .tc main_v6) : S160000.Idx → BitVec 32) = Cert.ReferenceIdeal.ReadP.val_main_v6 (F := Ideal) (m ((c : Thread nD τ).loc main_arg1)) := by
  have h := at4_v6 m ρ c
  show StableHlo.after hostOps1_2 (StableHlo.after hostOps1_1 (StableHlo.after hostOps1 (W4 m ρ c))) (Proc.devRef .tc main_v6) = _
  generalize W4 m ρ c = V at h ⊢
  after_results_simp
  exact h

theorem at7_v30 : (W7 m ρ c (Proc.devRef .tc main_v30) : S160000x1.Idx → EReal) = Cert.ReferenceIdeal.ReadP.val_main_v30 (F := Ideal) (m ((c : Thread nD τ).loc main_arg1)) := by
  have h := at4_v30 m ρ c
  show StableHlo.after hostOps1_2 (StableHlo.after hostOps1_1 (StableHlo.after hostOps1 (W4 m ρ c))) (Proc.devRef .tc main_v30) = _
  generalize W4 m ρ c = V at h ⊢
  after_results_simp
  exact h

theorem at7_arg2 : (W7 m ρ c (Proc.devRef .tc main_arg2) : S10000.Idx → BitVec 32) = (m ((c : Thread nD τ).loc main_arg2)) := by
  have h := at4_arg2 m ρ c
  show StableHlo.after hostOps1_2 (StableHlo.after hostOps1_1 (StableHlo.after hostOps1 (W4 m ρ c))) (Proc.devRef .tc main_arg2) = _
  generalize W4 m ρ c = V at h ⊢
  after_results_simp
  exact h

theorem at7_arg6 : (W7 m ρ c (Proc.devRef .tc main_arg6) : S512.Idx → EReal) = (m ((c : Thread nD τ).loc main_arg6)) := by
  have h := at4_arg6 m ρ c
  show StableHlo.after hostOps1_2 (StableHlo.after hostOps1_1 (StableHlo.after hostOps1 (W4 m ρ c))) (Proc.devRef .tc main_arg6) = _
  generalize W4 m ρ c = V at h ⊢
  after_results_simp
  exact h

theorem at7_arg7 : (W7 m ρ c (Proc.devRef .tc main_arg7) : S512x512.Idx → EReal) = (m ((c : Thread nD τ).loc main_arg7)) := by
  have h := at4_arg7 m ρ c
  show StableHlo.after hostOps1_2 (StableHlo.after hostOps1_1 (StableHlo.after hostOps1 (W4 m ρ c))) (Proc.devRef .tc main_arg7) = _
  generalize W4 m ρ c = V at h ⊢
  after_results_simp
  exact h

theorem at7_arg8 : (W7 m ρ c (Proc.devRef .tc main_arg8) : S512.Idx → EReal) = (m ((c : Thread nD τ).loc main_arg8)) := by
  have h := at4_arg8 m ρ c
  show StableHlo.after hostOps1_2 (StableHlo.after hostOps1_1 (StableHlo.after hostOps1 (W4 m ρ c))) (Proc.devRef .tc main_arg8) = _
  generalize W4 m ρ c = V at h ⊢
  after_results_simp
  exact h

theorem at7_arg9 : (W7 m ρ c (Proc.devRef .tc main_arg9) : S512x512.Idx → EReal) = (m ((c : Thread nD τ).loc main_arg9)) := by
  have h := at4_arg9 m ρ c
  show StableHlo.after hostOps1_2 (StableHlo.after hostOps1_1 (StableHlo.after hostOps1 (W4 m ρ c))) (Proc.devRef .tc main_arg9) = _
  generalize W4 m ρ c = V at h ⊢
  after_results_simp
  exact h

theorem at7_arg10 : (W7 m ρ c (Proc.devRef .tc main_arg10) : S512.Idx → EReal) = (m ((c : Thread nD τ).loc main_arg10)) := by
  have h := at4_arg10 m ρ c
  show StableHlo.after hostOps1_2 (StableHlo.after hostOps1_1 (StableHlo.after hostOps1 (W4 m ρ c))) (Proc.devRef .tc main_arg10) = _
  generalize W4 m ρ c = V at h ⊢
  after_results_simp
  exact h

theorem at7_arg11 : (W7 m ρ c (Proc.devRef .tc main_arg11) : S512x128.Idx → EReal) = (m ((c : Thread nD τ).loc main_arg11)) := by
  have h := at4_arg11 m ρ c
  show StableHlo.after hostOps1_2 (StableHlo.after hostOps1_1 (StableHlo.after hostOps1 (W4 m ρ c))) (Proc.devRef .tc main_arg11) = _
  generalize W4 m ρ c = V at h ⊢
  after_results_simp
  exact h

theorem at7_arg12 : (W7 m ρ c (Proc.devRef .tc main_arg12) : S128.Idx → EReal) = (m ((c : Thread nD τ).loc main_arg12)) := by
  have h := at4_arg12 m ρ c
  show StableHlo.after hostOps1_2 (StableHlo.after hostOps1_1 (StableHlo.after hostOps1 (W4 m ρ c))) (Proc.devRef .tc main_arg12) = _
  generalize W4 m ρ c = V at h ⊢
  after_results_simp
  exact h

/-- The next product's left factor: this layer's activations, the reference's stage of the same name. -/
theorem at7_v50 : (W7 m ρ c (Proc.devRef .tc main_v50) : S10000x512.Idx → EReal) = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) := by
  have ho := at4_out m ρ c
  have h3 := at4_v3 m ρ c
  have h6 := at4_v6 m ρ c
  have h30 := at4_v30 m ρ c
  have hb := at4_arg4 m ρ c
  show StableHlo.after hostOps1_2 (StableHlo.after hostOps1_1 (StableHlo.after hostOps1 (W4 m ρ c))) (Proc.devRef .tc main_v50) = _
  generalize W4 m ρ c = V at ho h3 h6 h30 hb ⊢
  after_results_simp
  simp only [cast_eq]
  rw [ho, h3, h6, h30, hb]
  refine (format_id _ _).trans ?_
  rfl

/-- The next product's right factor: weight matrix 2, as launched. -/
theorem at7_v51 : (W7 m ρ c (Proc.devRef .tc main_v51) : S512x512.Idx → EReal) = (m ((c : Thread nD τ).loc main_arg5)) := by
  have hw := at4_arg5 m ρ c
  show StableHlo.after hostOps1_2 (StableHlo.after hostOps1_1 (StableHlo.after hostOps1 (W4 m ρ c))) (Proc.devRef .tc main_v51) = _
  generalize W4 m ρ c = V at hw ⊢
  after_results_simp
  rw [hw]
  rfl

end Cert.KernelIdeal.Fold

end
-- ==== Proof.Tile1.lean ====
/-
  Region 1 of the kernel's @main is a matrix product tiled over rows. Its grid has ten points; point `t` fetches
  rows 1000·t … 1000·t + 999 of the left array (all 512 columns), the whole right array (512 × 512), multiplies them on
  the matrix unit into a zero accumulator, and writes the 1000 × 512 result back as rows 1000·t … 1000·t + 999 of the
  output. At the ideal instance an entry of a block product is the plain sum over the contracted axis, so the entry
  (r, q) of the output array ends at  ∑ₖ A(r, k) · B(k, q)  — the sum that defines the whole product A · B — whatever
  the region finds in its two input arrays. The ten row blocks tile the 10000 rows, so this holds at every entry.
-/
import proofs.«142247_j68324339745256_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Tile1

open Cert.KernelIdeal Cert.KernelIdeal.Gen Idealize.ShloMosaic Idealize.ShloMosaic.TcCoe Idealize.SL.Sem
open Idealize.ShloMosaic.Pipeline (Dat)

/-! ## The product, entry by entry -/

/-- The left factor's index (row of `i`, column `k`). -/
abbrev rowAt (i : S10000x512.Idx) (k : Fin 512) : S10000x512.Idx := fun a => match a with
  | ⟨0, _⟩ => ⟨(i 0).val, (i 0).isLt⟩
  | ⟨1, _⟩ => ⟨k.val, k.isLt⟩
/-- The right factor's index (row `k`, column of `i`). -/
abbrev colAt (i : S10000x512.Idx) (k : Fin 512) : S512x512.Idx := fun a => match a with
  | ⟨0, _⟩ => ⟨k.val, k.isLt⟩
  | ⟨1, _⟩ => ⟨(i 1).val, (i 1).isLt⟩

/-- The whole product A · B of a 10000 × 512 array and a 512 × 512 array: entry `i` is ∑ₖ A(i₀, k) · B(k, i₁). -/
def product (A : S10000x512.Idx → EReal) (B : S512x512.Idx → EReal) : S10000x512.Idx → EReal :=
  fun i => ∑ k : Fin 512, A (rowAt i k) * B (colAt i k)

/-! ## One block product at an entry -/

/-- Inside a block: the left block's index (row of `j`, column `k`) and the right array's (row `k`, column of `j`). -/
abbrev bRow (j : S1000x512.Idx) (k : Fin 512) : S1000x512.Idx := fun a => match a with
  | ⟨0, _⟩ => ⟨(j 0).val, (j 0).isLt⟩
  | ⟨1, _⟩ => ⟨k.val, k.isLt⟩
abbrev bCol (j : S1000x512.Idx) (k : Fin 512) : S512x512.Idx := fun a => match a with
  | ⟨0, _⟩ => ⟨k.val, k.isLt⟩
  | ⟨1, _⟩ => ⟨(j 1).val, (j 1).isLt⟩

theorem lhs_0 (j : S1000x512.Idx) (q : dot_S1000x512_S512x512_S1000x512_1_0_0_1_n_n.contr.Idx) : (dot_S1000x512_S512x512_S1000x512_1_0_0_1_n_n.lhsIdx j q 0).val = (j 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_1 (j : S1000x512.Idx) (q : dot_S1000x512_S512x512_S1000x512_1_0_0_1_n_n.contr.Idx) : (dot_S1000x512_S512x512_S1000x512_1_0_0_1_n_n.lhsIdx j q 1).val = (q ⟨0, by decide⟩).val :=
  dot_S1000x512_S512x512_S1000x512_1_0_0_1_n_n.lhsIdx_val_of_single rfl j q
theorem rhs_0 (j : S1000x512.Idx) (q : dot_S1000x512_S512x512_S1000x512_1_0_0_1_n_n.contr.Idx) : (dot_S1000x512_S512x512_S1000x512_1_0_0_1_n_n.rhsIdx j q 0).val = (q ⟨0, by decide⟩).val :=
  dot_S1000x512_S512x512_S1000x512_1_0_0_1_n_n.rhsIdx_val_of_single rfl j q
theorem rhs_1 (j : S1000x512.Idx) (q : dot_S1000x512_S512x512_S1000x512_1_0_0_1_n_n.contr.Idx) : (dot_S1000x512_S512x512_S1000x512_1_0_0_1_n_n.rhsIdx j q 1).val = (j 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The body's stored value at entry `j` of its block: the matrix unit's product into the zero accumulator is the sum
    over the contracted axis of left block entry times right array entry. -/
theorem payload_apply (x0 : Vec Ideal S1000x512 .bf16) (x1 : Vec Ideal S512x512 .bf16) (j : S1000x512.Idx) :
    k1_pay1 (F := Ideal) x0 x1 j = ∑ k : Fin 512, (x0 (bRow j k) : EReal) * (x1 (bCol j k) : EReal) := by
  unfold k1_pay1
  rw [shapeCast_self, shapeCast_self]
  refine (Ideal.matmul_constant_zero_apply (φ₁ := FTy.bf16) (φ₂ := FTy.bf16) dot_S1000x512_S512x512_S1000x512_1_0_0_1_n_n none x0 x1 j).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx j ((ValueIdx.contrEquiv1 dot_S1000x512_S512x512_S1000x512_1_0_0_1_n_n 512 rfl rfl).symm k) = bRow j k := funext fun a => Fin.ext (by
    match a with
    | ⟨0, _⟩ => exact lhs_0 _ _
    | ⟨1, _⟩ => exact (lhs_1 _ _).trans hk)
  have er : dot_S1000x512_S512x512_S1000x512_1_0_0_1_n_n.rhsIdx j ((ValueIdx.contrEquiv1 dot_S1000x512_S512x512_S1000x512_1_0_0_1_n_n 512 rfl rfl).symm k) = bCol j k := funext fun a => Fin.ext (by
    match a with
    | ⟨0, _⟩ => exact (rhs_0 _ _).trans hk
    | ⟨1, _⟩ => exact rhs_1 _ _)
  rw [el, er]

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output window move together down the rows and stay
    at column block 0; the right window stays at block (0, 0); the output's row block is the point's number. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the whole product of the two arrays as the region finds them. -/
theorem flushed_eq (c : Dev nD) (t : Fin cfg1.N) :
    (dat1 V c).flushed 2 t = ((cfg1.win 2).blk t).view.read (Elt Ideal) (product (V c main_v50) (V c main_v51)) := by
  show (cfg1.win 2).cut (grid1.coords t) ((dat1 V c).after 2 t) = _
  rw [after1_2]
  unfold out1_2
  rw [View.canon_unit_zero hz]
  simp only [View.ld_unit_zero (S := S1000x512) hz, View.ld_unit_zero (S := S512x512) hz]
  obtain ⟨e0, e1, e2, e3, e4, e5⟩ := index_facts t
  funext j
  refine (payload_apply (iblk1 V c 0 t) (iblk1 V c 1 t) j).trans ?_
  show _ = product (V c main_v50) (V c main_v51) (((cfg1.win 2).blk t).view.emb j)
  unfold product
  refine Finset.sum_congr rfl fun k _ => ?_
  have hl : @Eq EReal (iblk1 V c 0 t (bRow j k)) (V c main_v50 (rowAt (((cfg1.win 2).blk t).view.emb j) k)) := by
    show @Eq EReal (V c main_v50 (((cfg1.win 0).blk t).view.emb (bRow j k))) (V c main_v50 (rowAt (((cfg1.win 2).blk t).view.emb j) k))
    refine congrArg (V c main_v50) (funext fun a => Fin.ext ?_)
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 512 + 1 * k.val = k.val; omega
  have hr : @Eq EReal (iblk1 V c 1 t (bCol j k)) (V c main_v51 (colAt (((cfg1.win 2).blk t).view.emb j) k)) := by
    show @Eq EReal (V c main_v51 (((cfg1.win 1).blk t).view.emb (bCol j k))) (V c main_v51 (colAt (((cfg1.win 2).blk t).view.emb j) k))
    refine congrArg (V c main_v51) (funext fun a => Fin.ext ?_)
    match a with
    | ⟨0, _⟩ => show win1_1.index t (0 : Fin 2) * 512 + 1 * k.val = k.val; omega
    | ⟨1, _⟩ => show win1_1.index t (1 : Fin 2) * 512 + 1 * (j 1).val = win1_2.index t (1 : Fin 2) * 512 + 1 * (j 1).val; omega
  exact congrArg₂ (fun a b : EReal => a * b) hl hr

/-- An index of the output array is in point `t`'s block iff each coordinate is in the block's range on its axis. -/
theorem mem_block (t : Fin cfg1.N) (i : S10000x512.Idx) :
    i ∈ ((cfg1.win 2).blk t).view.set ↔ ∀ a : Fin 2, win1_2.index t a * S1000x512.size a ≤ (i a).val ∧ (i a).val < win1_2.index t a * S1000x512.size a + S1000x512.size a := by
  show i ∈ ((View.whole main_v52).slice (win1_2.rect t)).set ↔ _
  rw [View.set_slice_whole, Rect.mem_set_unit]
  exact Iff.rfl

/-- Every entry of the output is in some point's block: row `r` is in block `r / 1000`. -/
theorem cover (i : S10000x512.Idx) : ∃ t : Fin cfg1.N, (cfg1.win 2).flush t = true ∧ i ∈ ((cfg1.win 2).blk t).view.set := by
  have hi0 : (i 0).val < 10000 := (i 0).isLt
  have hi1 : (i 1).val < 512 := (i 1).isLt
  have hN : cfg1.N = 10 := N_1
  refine ⟨⟨(i 0).val / 1000, by rw [hN]; omega⟩, flush1_2 _, ?_⟩
  rw [mem_block]
  obtain ⟨e0, e1, e2, e3, e4, e5⟩ := index_facts ⟨(i 0).val / 1000, by rw [hN]; omega⟩
  intro a
  match a with
  | ⟨0, _⟩ =>
    show win1_2.index _ (0 : Fin 2) * 1000 ≤ (i 0).val ∧ (i 0).val < win1_2.index _ (0 : Fin 2) * 1000 + 1000
    rw [e5]; show (i 0).val / 1000 * 1000 ≤ (i 0).val ∧ (i 0).val < (i 0).val / 1000 * 1000 + 1000; omega
  | ⟨1, _⟩ =>
    show win1_2.index _ (1 : Fin 2) * 512 ≤ (i 1).val ∧ (i 1).val < win1_2.index _ (1 : Fin 2) * 512 + 512
    rw [e4]; omega

/-- THE ARRAY the region leaves in its output: the whole product of its two input arrays as it finds them. -/
theorem array_eq (c : Dev nD) :
    (dat1 V c).arrAt 2 cfg1.N = product (V c main_v50) (V c main_v51) :=
  (dat1 V c).arrAt_eq_of_cover 2 (product (V c main_v50) (V c main_v51)) (fun t _ => flushed_eq V c t) cover

end Cert.KernelIdeal.Tile1

end
-- ==== Proof.Fold2.lean ====
/-
  Layer 2 of the kernel's @main. Region 1 leaves in its output array the whole product of the two arrays it
  finds (the tiling lemma); at the region's entry those held the previous layer's activations and weight matrix 2, so the
  output is the reference's matrix product of this layer, entry by entry the same sum over the contracted axis.
  Every other buffer passes the region unchanged. The host operations that follow — gather the rows of the product at
  the message sources, scale each by its edge weight, add them up at the targets, add the bias, clamp at zero, and
  hand the next product its factors through the identity change of format — are
  operation for operation the reference's, so each buffer that is read later holds the reference's stage of the
  same value.
-/
import proofs.«142247_j68324339745256_1_alg».proof.Proof.Fold1
import proofs.«142247_j68324339745256_1_alg».proof.Proof.Tile1

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At region 1's exit -/

/-- The region's output is the reference's product stage: both are, at every entry, the sum over the contracted axis
    of left entry times right entry. -/
theorem at8_out : (W8 m ρ c (Proc.devRef .tc main_v52) : S10000x512.Idx → EReal) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W8_arr m ρ c 2).trans ?_
  refine (Cert.KernelIdeal.Tile1.array_eq (V7 m ρ) c).trans ?_
  show Cert.KernelIdeal.Tile1.product (W7 m ρ c (Proc.devRef .tc main_v50)) (W7 m ρ c (Proc.devRef .tc main_v51)) = _
  rw [at7_v50 m ρ c, at7_v51 m ρ c]
  funext i
  rw [Cert.ReferenceIdeal.ReadP.val_main_v48_apply]
  rfl

theorem at8_v3 : (W8 m ρ c (Proc.devRef .tc main_v3) : S160000.Idx → BitVec 32) = Cert.ReferenceIdeal.ReadP.val_main_v3 (F := Ideal) (m ((c : Thread nD τ).loc main_arg1)) :=
  (W8_of_ne m ρ c main_v3 (by decide)).trans (at7_v3 m ρ c)

theorem at8_v6 : (W8 m ρ c (Proc.devRef .tc main_v6) : S160000.Idx → BitVec 32) = Cert.ReferenceIdeal.ReadP.val_main_v6 (F := Ideal) (m ((c : Thread nD τ).loc main_arg1)) :=
  (W8_of_ne m ρ c main_v6 (by decide)).trans (at7_v6 m ρ c)

theorem at8_v30 : (W8 m ρ c (Proc.devRef .tc main_v30) : S160000x1.Idx → EReal) = Cert.ReferenceIdeal.ReadP.val_main_v30 (F := Ideal) (m ((c : Thread nD τ).loc main_arg1)) :=
  (W8_of_ne m ρ c main_v30 (by decide)).trans (at7_v30 m ρ c)

theorem at8_arg2 : (W8 m ρ c (Proc.devRef .tc main_arg2) : S10000.Idx → BitVec 32) = (m ((c : Thread nD τ).loc main_arg2)) :=
  (W8_of_ne m ρ c main_arg2 (by decide)).trans (at7_arg2 m ρ c)

theorem at8_arg6 : (W8 m ρ c (Proc.devRef .tc main_arg6) : S512.Idx → EReal) = (m ((c : Thread nD τ).loc main_arg6)) :=
  (W8_of_ne m ρ c main_arg6 (by decide)).trans (at7_arg6 m ρ c)

theorem at8_arg7 : (W8 m ρ c (Proc.devRef .tc main_arg7) : S512x512.Idx → EReal) = (m ((c : Thread nD τ).loc main_arg7)) :=
  (W8_of_ne m ρ c main_arg7 (by decide)).trans (at7_arg7 m ρ c)

theorem at8_arg8 : (W8 m ρ c (Proc.devRef .tc main_arg8) : S512.Idx → EReal) = (m ((c : Thread nD τ).loc main_arg8)) :=
  (W8_of_ne m ρ c main_arg8 (by decide)).trans (at7_arg8 m ρ c)

theorem at8_arg9 : (W8 m ρ c (Proc.devRef .tc main_arg9) : S512x512.Idx → EReal) = (m ((c : Thread nD τ).loc main_arg9)) :=
  (W8_of_ne m ρ c main_arg9 (by decide)).trans (at7_arg9 m ρ c)

theorem at8_arg10 : (W8 m ρ c (Proc.devRef .tc main_arg10) : S512.Idx → EReal) = (m ((c : Thread nD τ).loc main_arg10)) :=
  (W8_of_ne m ρ c main_arg10 (by decide)).trans (at7_arg10 m ρ c)

theorem at8_arg11 : (W8 m ρ c (Proc.devRef .tc main_arg11) : S512x128.Idx → EReal) = (m ((c : Thread nD τ).loc main_arg11)) :=
  (W8_of_ne m ρ c main_arg11 (by decide)).trans (at7_arg11 m ρ c)

theorem at8_arg12 : (W8 m ρ c (Proc.devRef .tc main_arg12) : S128.Idx → EReal) = (m ((c : Thread nD τ).loc main_arg12)) :=
  (W8_of_ne m ρ c main_arg12 (by decide)).trans (at7_arg12 m ρ c)

/-! ## At region 2's entry -/

theorem at11_v3 : (W11 m ρ c (Proc.devRef .tc main_v3) : S160000.Idx → BitVec 32) = Cert.ReferenceIdeal.ReadP.val_main_v3 (F := Ideal) (m ((c : Thread nD τ).loc main_arg1)) := by
  have h := at8_v3 m ρ c
  show StableHlo.after hostOps2_2 (StableHlo.after hostOps2_1 (StableHlo.after hostOps2 (W8 m ρ c))) (Proc.devRef .tc main_v3) = _
  generalize W8 m ρ c = V at h ⊢
  after_results_simp
  exact h

theorem at11_v6 : (W11 m ρ c (Proc.devRef .tc main_v6) : S160000.Idx → BitVec 32) = Cert.ReferenceIdeal.ReadP.val_main_v6 (F := Ideal) (m ((c : Thread nD τ).loc main_arg1)) := by
  have h := at8_v6 m ρ c
  show StableHlo.after hostOps2_2 (StableHlo.after hostOps2_1 (StableHlo.after hostOps2 (W8 m ρ c))) (Proc.devRef .tc main_v6) = _
  generalize W8 m ρ c = V at h ⊢
  after_results_simp
  exact h

theorem at11_v30 : (W11 m ρ c (Proc.devRef .tc main_v30) : S160000x1.Idx → EReal) = Cert.ReferenceIdeal.ReadP.val_main_v30 (F := Ideal) (m ((c : Thread nD τ).loc main_arg1)) := by
  have h := at8_v30 m ρ c
  show StableHlo.after hostOps2_2 (StableHlo.after hostOps2_1 (StableHlo.after hostOps2 (W8 m ρ c))) (Proc.devRef .tc main_v30) = _
  generalize W8 m ρ c = V at h ⊢
  after_results_simp
  exact h

theorem at11_arg2 : (W11 m ρ c (Proc.devRef .tc main_arg2) : S10000.Idx → BitVec 32) = (m ((c : Thread nD τ).loc main_arg2)) := by
  have h := at8_arg2 m ρ c
  show StableHlo.after hostOps2_2 (StableHlo.after hostOps2_1 (StableHlo.after hostOps2 (W8 m ρ c))) (Proc.devRef .tc main_arg2) = _
  generalize W8 m ρ c = V at h ⊢
  after_results_simp
  exact h

theorem at11_arg8 : (W11 m ρ c (Proc.devRef .tc main_arg8) : S512.Idx → EReal) = (m ((c : Thread nD τ).loc main_arg8)) := by
  have h := at8_arg8 m ρ c
  show StableHlo.after hostOps2_2 (StableHlo.after hostOps2_1 (StableHlo.after hostOps2 (W8 m ρ c))) (Proc.devRef .tc main_arg8) = _
  generalize W8 m ρ c = V at h ⊢
  after_results_simp
  exact h

theorem at11_arg9 : (W11 m ρ c (Proc.devRef .tc main_arg9) : S512x512.Idx → EReal) = (m ((c : Thread nD τ).loc main_arg9)) := by
  have h := at8_arg9 m ρ c
  show StableHlo.after hostOps2_2 (StableHlo.after hostOps2_1 (StableHlo.after hostOps2 (W8 m ρ c))) (Proc.devRef .tc main_arg9) = _
  generalize W8 m ρ c = V at h ⊢
  after_results_simp
  exact h

theorem at11_arg10 : (W11 m ρ c (Proc.devRef .tc main_arg10) : S512.Idx → EReal) = (m ((c : Thread nD τ).loc main_arg10)) := by
  have h := at8_arg10 m ρ c
  show StableHlo.after hostOps2_2 (StableHlo.after hostOps2_1 (StableHlo.after hostOps2 (W8 m ρ c))) (Proc.devRef .tc main_arg10) = _
  generalize W8 m ρ c = V at h ⊢
  after_results_simp
  exact h

theorem at11_arg11 : (W11 m ρ c (Proc.devRef .tc main_arg11) : S512x128.Idx → EReal) = (m ((c : Thread nD τ).loc main_arg11)) := by
  have h := at8_arg11 m ρ c
  show StableHlo.after hostOps2_2 (StableHlo.after hostOps2_1 (StableHlo.after hostOps2 (W8 m ρ c))) (Proc.devRef .tc main_arg11) = _
  generalize W8 m ρ c = V at h ⊢
  after_results_simp
  exact h

theorem at11_arg12 : (W11 m ρ c (Proc.devRef .tc main_arg12) : S128.Idx → EReal) = (m ((c : Thread nD τ).loc main_arg12)) := by
  have h := at8_arg12 m ρ c
  show StableHlo.after hostOps2_2 (StableHlo.after hostOps2_1 (StableHlo.after hostOps2 (W8 m ρ c))) (Proc.devRef .tc main_arg12) = _
  generalize W8 m ρ c = V at h ⊢
  after_results_simp
  exact h

/-- The next product's left factor: this layer's activations, the reference's stage of the same name. -/
theorem at11_v69 : (W11 m ρ c (Proc.devRef .tc main_v69) : S10000x512.Idx → EReal) = Cert.ReferenceIdeal.ReadP.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have ho := at8_out m ρ c
  have h3 := at8_v3 m ρ c
  have h6 := at8_v6 m ρ c
  have h30 := at8_v30 m ρ c
  have hb := at8_arg6 m ρ c
  show StableHlo.after hostOps2_2 (StableHlo.after hostOps2_1 (StableHlo.after hostOps2 (W8 m ρ c))) (Proc.devRef .tc main_v69) = _
  generalize W8 m ρ c = V at ho h3 h6 h30 hb ⊢
  after_results_simp
  simp only [cast_eq]
  rw [ho, h3, h6, h30, hb]
  refine (format_id _ _).trans ?_
  rfl

/-- The next product's right factor: weight matrix 3, as launched. -/
theorem at11_v70 : (W11 m ρ c (Proc.devRef .tc main_v70) : S512x512.Idx → EReal) = (m ((c : Thread nD τ).loc main_arg7)) := by
  have hw := at8_arg7 m ρ c
  show StableHlo.after hostOps2_2 (StableHlo.after hostOps2_1 (StableHlo.after hostOps2 (W8 m ρ c))) (Proc.devRef .tc main_v70) = _
  generalize W8 m ρ c = V at hw ⊢
  after_results_simp
  rw [hw]
  rfl

end Cert.KernelIdeal.Fold

end
-- ==== Proof.Tile2.lean ====
/-
  Region 2 of the kernel's @main is a matrix product tiled over rows. Its grid has ten points; point `t` fetches
  rows 1000·t … 1000·t + 999 of the left array (all 512 columns), the whole right array (512 × 512), multiplies them on
  the matrix unit into a zero accumulator, and writes the 1000 × 512 result back as rows 1000·t … 1000·t + 999 of the
  output. At the ideal instance an entry of a block product is the plain sum over the contracted axis, so the entry
  (r, q) of the output array ends at  ∑ₖ A(r, k) · B(k, q)  — the sum that defines the whole product A · B — whatever
  the region finds in its two input arrays. The ten row blocks tile the 10000 rows, so this holds at every entry.
-/
import proofs.«142247_j68324339745256_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Tile2

open Cert.KernelIdeal Cert.KernelIdeal.Gen Idealize.ShloMosaic Idealize.ShloMosaic.TcCoe Idealize.SL.Sem
open Idealize.ShloMosaic.Pipeline (Dat)

/-! ## The product, entry by entry -/

/-- The left factor's index (row of `i`, column `k`). -/
abbrev rowAt (i : S10000x512.Idx) (k : Fin 512) : S10000x512.Idx := fun a => match a with
  | ⟨0, _⟩ => ⟨(i 0).val, (i 0).isLt⟩
  | ⟨1, _⟩ => ⟨k.val, k.isLt⟩
/-- The right factor's index (row `k`, column of `i`). -/
abbrev colAt (i : S10000x512.Idx) (k : Fin 512) : S512x512.Idx := fun a => match a with
  | ⟨0, _⟩ => ⟨k.val, k.isLt⟩
  | ⟨1, _⟩ => ⟨(i 1).val, (i 1).isLt⟩

/-- The whole product A · B of a 10000 × 512 array and a 512 × 512 array: entry `i` is ∑ₖ A(i₀, k) · B(k, i₁). -/
def product (A : S10000x512.Idx → EReal) (B : S512x512.Idx → EReal) : S10000x512.Idx → EReal :=
  fun i => ∑ k : Fin 512, A (rowAt i k) * B (colAt i k)

/-! ## One block product at an entry -/

/-- Inside a block: the left block's index (row of `j`, column `k`) and the right array's (row `k`, column of `j`). -/
abbrev bRow (j : S1000x512.Idx) (k : Fin 512) : S1000x512.Idx := fun a => match a with
  | ⟨0, _⟩ => ⟨(j 0).val, (j 0).isLt⟩
  | ⟨1, _⟩ => ⟨k.val, k.isLt⟩
abbrev bCol (j : S1000x512.Idx) (k : Fin 512) : S512x512.Idx := fun a => match a with
  | ⟨0, _⟩ => ⟨k.val, k.isLt⟩
  | ⟨1, _⟩ => ⟨(j 1).val, (j 1).isLt⟩

theorem lhs_0 (j : S1000x512.Idx) (q : dot_S1000x512_S512x512_S1000x512_1_0_0_1_n_n.contr.Idx) : (dot_S1000x512_S512x512_S1000x512_1_0_0_1_n_n.lhsIdx j q 0).val = (j 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_1 (j : S1000x512.Idx) (q : dot_S1000x512_S512x512_S1000x512_1_0_0_1_n_n.contr.Idx) : (dot_S1000x512_S512x512_S1000x512_1_0_0_1_n_n.lhsIdx j q 1).val = (q ⟨0, by decide⟩).val :=
  dot_S1000x512_S512x512_S1000x512_1_0_0_1_n_n.lhsIdx_val_of_single rfl j q
theorem rhs_0 (j : S1000x512.Idx) (q : dot_S1000x512_S512x512_S1000x512_1_0_0_1_n_n.contr.Idx) : (dot_S1000x512_S512x512_S1000x512_1_0_0_1_n_n.rhsIdx j q 0).val = (q ⟨0, by decide⟩).val :=
  dot_S1000x512_S512x512_S1000x512_1_0_0_1_n_n.rhsIdx_val_of_single rfl j q
theorem rhs_1 (j : S1000x512.Idx) (q : dot_S1000x512_S512x512_S1000x512_1_0_0_1_n_n.contr.Idx) : (dot_S1000x512_S512x512_S1000x512_1_0_0_1_n_n.rhsIdx j q 1).val = (j 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The body's stored value at entry `j` of its block: the matrix unit's product into the zero accumulator is the sum
    over the contracted axis of left block entry times right array entry. -/
theorem payload_apply (x0 : Vec Ideal S1000x512 .bf16) (x1 : Vec Ideal S512x512 .bf16) (j : S1000x512.Idx) :
    k2_pay1 (F := Ideal) x0 x1 j = ∑ k : Fin 512, (x0 (bRow j k) : EReal) * (x1 (bCol j k) : EReal) := by
  unfold k2_pay1
  rw [shapeCast_self, shapeCast_self]
  refine (Ideal.matmul_constant_zero_apply (φ₁ := FTy.bf16) (φ₂ := FTy.bf16) dot_S1000x512_S512x512_S1000x512_1_0_0_1_n_n none x0 x1 j).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx j ((ValueIdx.contrEquiv1 dot_S1000x512_S512x512_S1000x512_1_0_0_1_n_n 512 rfl rfl).symm k) = bRow j k := funext fun a => Fin.ext (by
    match a with
    | ⟨0, _⟩ => exact lhs_0 _ _
    | ⟨1, _⟩ => exact (lhs_1 _ _).trans hk)
  have er : dot_S1000x512_S512x512_S1000x512_1_0_0_1_n_n.rhsIdx j ((ValueIdx.contrEquiv1 dot_S1000x512_S512x512_S1000x512_1_0_0_1_n_n 512 rfl rfl).symm k) = bCol j k := funext fun a => Fin.ext (by
    match a with
    | ⟨0, _⟩ => exact (rhs_0 _ _).trans hk
    | ⟨1, _⟩ => exact rhs_1 _ _)
  rw [el, er]

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output window move together down the rows and stay
    at column block 0; the right window stays at block (0, 0); the output's row block is the point's number. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of the whole product of the two arrays as the region finds them. -/
theorem flushed_eq (c : Dev nD) (t : Fin cfg2.N) :
    (dat2 V c).flushed 2 t = ((cfg2.win 2).blk t).view.read (Elt Ideal) (product (V c main_v69) (V c main_v70)) := by
  show (cfg2.win 2).cut (grid2.coords t) ((dat2 V c).after 2 t) = _
  rw [after2_2]
  unfold out2_2
  rw [View.canon_unit_zero hz]
  simp only [View.ld_unit_zero (S := S1000x512) hz, View.ld_unit_zero (S := S512x512) hz]
  obtain ⟨e0, e1, e2, e3, e4, e5⟩ := index_facts t
  funext j
  refine (payload_apply (iblk2 V c 0 t) (iblk2 V c 1 t) j).trans ?_
  show _ = product (V c main_v69) (V c main_v70) (((cfg2.win 2).blk t).view.emb j)
  unfold product
  refine Finset.sum_congr rfl fun k _ => ?_
  have hl : @Eq EReal (iblk2 V c 0 t (bRow j k)) (V c main_v69 (rowAt (((cfg2.win 2).blk t).view.emb j) k)) := by
    show @Eq EReal (V c main_v69 (((cfg2.win 0).blk t).view.emb (bRow j k))) (V c main_v69 (rowAt (((cfg2.win 2).blk t).view.emb j) k))
    refine congrArg (V c main_v69) (funext fun a => Fin.ext ?_)
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 512 + 1 * k.val = k.val; omega
  have hr : @Eq EReal (iblk2 V c 1 t (bCol j k)) (V c main_v70 (colAt (((cfg2.win 2).blk t).view.emb j) k)) := by
    show @Eq EReal (V c main_v70 (((cfg2.win 1).blk t).view.emb (bCol j k))) (V c main_v70 (colAt (((cfg2.win 2).blk t).view.emb j) k))
    refine congrArg (V c main_v70) (funext fun a => Fin.ext ?_)
    match a with
    | ⟨0, _⟩ => show win2_1.index t (0 : Fin 2) * 512 + 1 * k.val = k.val; omega
    | ⟨1, _⟩ => show win2_1.index t (1 : Fin 2) * 512 + 1 * (j 1).val = win2_2.index t (1 : Fin 2) * 512 + 1 * (j 1).val; omega
  exact congrArg₂ (fun a b : EReal => a * b) hl hr

/-- An index of the output array is in point `t`'s block iff each coordinate is in the block's range on its axis. -/
theorem mem_block (t : Fin cfg2.N) (i : S10000x512.Idx) :
    i ∈ ((cfg2.win 2).blk t).view.set ↔ ∀ a : Fin 2, win2_2.index t a * S1000x512.size a ≤ (i a).val ∧ (i a).val < win2_2.index t a * S1000x512.size a + S1000x512.size a := by
  show i ∈ ((View.whole main_v71).slice (win2_2.rect t)).set ↔ _
  rw [View.set_slice_whole, Rect.mem_set_unit]
  exact Iff.rfl

/-- Every entry of the output is in some point's block: row `r` is in block `r / 1000`. -/
theorem cover (i : S10000x512.Idx) : ∃ t : Fin cfg2.N, (cfg2.win 2).flush t = true ∧ i ∈ ((cfg2.win 2).blk t).view.set := by
  have hi0 : (i 0).val < 10000 := (i 0).isLt
  have hi1 : (i 1).val < 512 := (i 1).isLt
  have hN : cfg2.N = 10 := N_2
  refine ⟨⟨(i 0).val / 1000, by rw [hN]; omega⟩, flush2_2 _, ?_⟩
  rw [mem_block]
  obtain ⟨e0, e1, e2, e3, e4, e5⟩ := index_facts ⟨(i 0).val / 1000, by rw [hN]; omega⟩
  intro a
  match a with
  | ⟨0, _⟩ =>
    show win2_2.index _ (0 : Fin 2) * 1000 ≤ (i 0).val ∧ (i 0).val < win2_2.index _ (0 : Fin 2) * 1000 + 1000
    rw [e5]; show (i 0).val / 1000 * 1000 ≤ (i 0).val ∧ (i 0).val < (i 0).val / 1000 * 1000 + 1000; omega
  | ⟨1, _⟩ =>
    show win2_2.index _ (1 : Fin 2) * 512 ≤ (i 1).val ∧ (i 1).val < win2_2.index _ (1 : Fin 2) * 512 + 512
    rw [e4]; omega

/-- THE ARRAY the region leaves in its output: the whole product of its two input arrays as it finds them. -/
theorem array_eq (c : Dev nD) :
    (dat2 V c).arrAt 2 cfg2.N = product (V c main_v69) (V c main_v70) :=
  (dat2 V c).arrAt_eq_of_cover 2 (product (V c main_v69) (V c main_v70)) (fun t _ => flushed_eq V c t) cover

end Cert.KernelIdeal.Tile2

end
-- ==== Proof.Fold3.lean ====
/-
  Layer 3 of the kernel's @main. Region 2 leaves in its output array the whole product of the two arrays it
  finds (the tiling lemma); at the region's entry those held the previous layer's activations and weight matrix 3, so the
  output is the reference's matrix product of this layer, entry by entry the same sum over the contracted axis.
  Every other buffer passes the region unchanged. The host operations that follow — gather the rows of the product at
  the message sources, scale each by its edge weight, add them up at the targets, add the bias, clamp at zero, and
  hand the next product its factors through the identity change of format — are
  operation for operation the reference's, so each buffer that is read later holds the reference's stage of the
  same value.
-/
import proofs.«142247_j68324339745256_1_alg».proof.Proof.Fold2
import proofs.«142247_j68324339745256_1_alg».proof.Proof.Tile2

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At region 2's exit -/

/-- The region's output is the reference's product stage: both are, at every entry, the sum over the contracted axis
    of left entry times right entry. -/
theorem at12_out : (W12 m ρ c (Proc.devRef .tc main_v71) : S10000x512.Idx → EReal) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ?_
  refine (Cert.KernelIdeal.Tile2.array_eq (V11 m ρ) c).trans ?_
  show Cert.KernelIdeal.Tile2.product (W11 m ρ c (Proc.devRef .tc main_v69)) (W11 m ρ c (Proc.devRef .tc main_v70)) = _
  rw [at11_v69 m ρ c, at11_v70 m ρ c]
  funext i
  rw [Cert.ReferenceIdeal.ReadP.val_main_v65_apply]
  rfl

theorem at12_v3 : (W12 m ρ c (Proc.devRef .tc main_v3) : S160000.Idx → BitVec 32) = Cert.ReferenceIdeal.ReadP.val_main_v3 (F := Ideal) (m ((c : Thread nD τ).loc main_arg1)) :=
  (W12_of_ne m ρ c main_v3 (by decide)).trans (at11_v3 m ρ c)

theorem at12_v6 : (W12 m ρ c (Proc.devRef .tc main_v6) : S160000.Idx → BitVec 32) = Cert.ReferenceIdeal.ReadP.val_main_v6 (F := Ideal) (m ((c : Thread nD τ).loc main_arg1)) :=
  (W12_of_ne m ρ c main_v6 (by decide)).trans (at11_v6 m ρ c)

theorem at12_v30 : (W12 m ρ c (Proc.devRef .tc main_v30) : S160000x1.Idx → EReal) = Cert.ReferenceIdeal.ReadP.val_main_v30 (F := Ideal) (m ((c : Thread nD τ).loc main_arg1)) :=
  (W12_of_ne m ρ c main_v30 (by decide)).trans (at11_v30 m ρ c)

theorem at12_arg2 : (W12 m ρ c (Proc.devRef .tc main_arg2) : S10000.Idx → BitVec 32) = (m ((c : Thread nD τ).loc main_arg2)) :=
  (W12_of_ne m ρ c main_arg2 (by decide)).trans (at11_arg2 m ρ c)

theorem at12_arg8 : (W12 m ρ c (Proc.devRef .tc main_arg8) : S512.Idx → EReal) = (m ((c : Thread nD τ).loc main_arg8)) :=
  (W12_of_ne m ρ c main_arg8 (by decide)).trans (at11_arg8 m ρ c)

theorem at12_arg9 : (W12 m ρ c (Proc.devRef .tc main_arg9) : S512x512.Idx → EReal) = (m ((c : Thread nD τ).loc main_arg9)) :=
  (W12_of_ne m ρ c main_arg9 (by decide)).trans (at11_arg9 m ρ c)

theorem at12_arg10 : (W12 m ρ c (Proc.devRef .tc main_arg10) : S512.Idx → EReal) = (m ((c : Thread nD τ).loc main_arg10)) :=
  (W12_of_ne m ρ c main_arg10 (by decide)).trans (at11_arg10 m ρ c)

theorem at12_arg11 : (W12 m ρ c (Proc.devRef .tc main_arg11) : S512x128.Idx → EReal) = (m ((c : Thread nD τ).loc main_arg11)) :=
  (W12_of_ne m ρ c main_arg11 (by decide)).trans (at11_arg11 m ρ c)

theorem at12_arg12 : (W12 m ρ c (Proc.devRef .tc main_arg12) : S128.Idx → EReal) = (m ((c : Thread nD τ).loc main_arg12)) :=
  (W12_of_ne m ρ c main_arg12 (by decide)).trans (at11_arg12 m ρ c)

/-! ## At region 3's entry -/

theorem at15_v3 : (W15 m ρ c (Proc.devRef .tc main_v3) : S160000.Idx → BitVec 32) = Cert.ReferenceIdeal.ReadP.val_main_v3 (F := Ideal) (m ((c : Thread nD τ).loc main_arg1)) := by
  have h := at12_v3 m ρ c
  show StableHlo.after hostOps3_2 (StableHlo.after hostOps3_1 (StableHlo.after hostOps3 (W12 m ρ c))) (Proc.devRef .tc main_v3) = _
  generalize W12 m ρ c = V at h ⊢
  after_results_simp
  exact h

theorem at15_v6 : (W15 m ρ c (Proc.devRef .tc main_v6) : S160000.Idx → BitVec 32) = Cert.ReferenceIdeal.ReadP.val_main_v6 (F := Ideal) (m ((c : Thread nD τ).loc main_arg1)) := by
  have h := at12_v6 m ρ c
  show StableHlo.after hostOps3_2 (StableHlo.after hostOps3_1 (StableHlo.after hostOps3 (W12 m ρ c))) (Proc.devRef .tc main_v6) = _
  generalize W12 m ρ c = V at h ⊢
  after_results_simp
  exact h

theorem at15_v30 : (W15 m ρ c (Proc.devRef .tc main_v30) : S160000x1.Idx → EReal) = Cert.ReferenceIdeal.ReadP.val_main_v30 (F := Ideal) (m ((c : Thread nD τ).loc main_arg1)) := by
  have h := at12_v30 m ρ c
  show StableHlo.after hostOps3_2 (StableHlo.after hostOps3_1 (StableHlo.after hostOps3 (W12 m ρ c))) (Proc.devRef .tc main_v30) = _
  generalize W12 m ρ c = V at h ⊢
  after_results_simp
  exact h

theorem at15_arg2 : (W15 m ρ c (Proc.devRef .tc main_arg2) : S10000.Idx → BitVec 32) = (m ((c : Thread nD τ).loc main_arg2)) := by
  have h := at12_arg2 m ρ c
  show StableHlo.after hostOps3_2 (StableHlo.after hostOps3_1 (StableHlo.after hostOps3 (W12 m ρ c))) (Proc.devRef .tc main_arg2) = _
  generalize W12 m ρ c = V at h ⊢
  after_results_simp
  exact h

theorem at15_arg10 : (W15 m ρ c (Proc.devRef .tc main_arg10) : S512.Idx → EReal) = (m ((c : Thread nD τ).loc main_arg10)) := by
  have h := at12_arg10 m ρ c
  show StableHlo.after hostOps3_2 (StableHlo.after hostOps3_1 (StableHlo.after hostOps3 (W12 m ρ c))) (Proc.devRef .tc main_arg10) = _
  generalize W12 m ρ c = V at h ⊢
  after_results_simp
  exact h

theorem at15_arg11 : (W15 m ρ c (Proc.devRef .tc main_arg11) : S512x128.Idx → EReal) = (m ((c : Thread nD τ).loc main_arg11)) := by
  have h := at12_arg11 m ρ c
  show StableHlo.after hostOps3_2 (StableHlo.after hostOps3_1 (StableHlo.after hostOps3 (W12 m ρ c))) (Proc.devRef .tc main_arg11) = _
  generalize W12 m ρ c = V at h ⊢
  after_results_simp
  exact h

theorem at15_arg12 : (W15 m ρ c (Proc.devRef .tc main_arg12) : S128.Idx → EReal) = (m ((c : Thread nD τ).loc main_arg12)) := by
  have h := at12_arg12 m ρ c
  show StableHlo.after hostOps3_2 (StableHlo.after hostOps3_1 (StableHlo.after hostOps3 (W12 m ρ c))) (Proc.devRef .tc main_arg12) = _
  generalize W12 m ρ c = V at h ⊢
  after_results_simp
  exact h

/-- The next product's left factor: this layer's activations, the reference's stage of the same name. -/
theorem at15_v88 : (W15 m ρ c (Proc.devRef .tc main_v88) : S10000x512.Idx → EReal) = Cert.ReferenceIdeal.ReadP.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have ho := at12_out m ρ c
  have h3 := at12_v3 m ρ c
  have h6 := at12_v6 m ρ c
  have h30 := at12_v30 m ρ c
  have hb := at12_arg8 m ρ c
  show StableHlo.after hostOps3_2 (StableHlo.after hostOps3_1 (StableHlo.after hostOps3 (W12 m ρ c))) (Proc.devRef .tc main_v88) = _
  generalize W12 m ρ c = V at ho h3 h6 h30 hb ⊢
  after_results_simp
  simp only [cast_eq]
  rw [ho, h3, h6, h30, hb]
  refine (format_id _ _).trans ?_
  rfl

/-- The next product's right factor: weight matrix 4, as launched. -/
theorem at15_v89 : (W15 m ρ c (Proc.devRef .tc main_v89) : S512x512.Idx → EReal) = (m ((c : Thread nD τ).loc main_arg9)) := by
  have hw := at12_arg9 m ρ c
  show StableHlo.after hostOps3_2 (StableHlo.after hostOps3_1 (StableHlo.after hostOps3 (W12 m ρ c))) (Proc.devRef .tc main_v89) = _
  generalize W12 m ρ c = V at hw ⊢
  after_results_simp
  rw [hw]
  rfl

end Cert.KernelIdeal.Fold

end
-- ==== Proof.Tile3.lean ====
/-
  Region 3 of the kernel's @main is a matrix product tiled over rows. Its grid has ten points; point `t` fetches
  rows 1000·t … 1000·t + 999 of the left array (all 512 columns), the whole right array (512 × 512), multiplies them on
  the matrix unit into a zero accumulator, and writes the 1000 × 512 result back as rows 1000·t … 1000·t + 999 of the
  output. At the ideal instance an entry of a block product is the plain sum over the contracted axis, so the entry
  (r, q) of the output array ends at  ∑ₖ A(r, k) · B(k, q)  — the sum that defines the whole product A · B — whatever
  the region finds in its two input arrays. The ten row blocks tile the 10000 rows, so this holds at every entry.
-/
import proofs.«142247_j68324339745256_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Tile3

open Cert.KernelIdeal Cert.KernelIdeal.Gen Idealize.ShloMosaic Idealize.ShloMosaic.TcCoe Idealize.SL.Sem
open Idealize.ShloMosaic.Pipeline (Dat)

/-! ## The product, entry by entry -/

/-- The left factor's index (row of `i`, column `k`). -/
abbrev rowAt (i : S10000x512.Idx) (k : Fin 512) : S10000x512.Idx := fun a => match a with
  | ⟨0, _⟩ => ⟨(i 0).val, (i 0).isLt⟩
  | ⟨1, _⟩ => ⟨k.val, k.isLt⟩
/-- The right factor's index (row `k`, column of `i`). -/
abbrev colAt (i : S10000x512.Idx) (k : Fin 512) : S512x512.Idx := fun a => match a with
  | ⟨0, _⟩ => ⟨k.val, k.isLt⟩
  | ⟨1, _⟩ => ⟨(i 1).val, (i 1).isLt⟩

/-- The whole product A · B of a 10000 × 512 array and a 512 × 512 array: entry `i` is ∑ₖ A(i₀, k) · B(k, i₁). -/
def product (A : S10000x512.Idx → EReal) (B : S512x512.Idx → EReal) : S10000x512.Idx → EReal :=
  fun i => ∑ k : Fin 512, A (rowAt i k) * B (colAt i k)

/-! ## One block product at an entry -/

/-- Inside a block: the left block's index (row of `j`, column `k`) and the right array's (row `k`, column of `j`). -/
abbrev bRow (j : S1000x512.Idx) (k : Fin 512) : S1000x512.Idx := fun a => match a with
  | ⟨0, _⟩ => ⟨(j 0).val, (j 0).isLt⟩
  | ⟨1, _⟩ => ⟨k.val, k.isLt⟩
abbrev bCol (j : S1000x512.Idx) (k : Fin 512) : S512x512.Idx := fun a => match a with
  | ⟨0, _⟩ => ⟨k.val, k.isLt⟩
  | ⟨1, _⟩ => ⟨(j 1).val, (j 1).isLt⟩

theorem lhs_0 (j : S1000x512.Idx) (q : dot_S1000x512_S512x512_S1000x512_1_0_0_1_n_n.contr.Idx) : (dot_S1000x512_S512x512_S1000x512_1_0_0_1_n_n.lhsIdx j q 0).val = (j 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_1 (j : S1000x512.Idx) (q : dot_S1000x512_S512x512_S1000x512_1_0_0_1_n_n.contr.Idx) : (dot_S1000x512_S512x512_S1000x512_1_0_0_1_n_n.lhsIdx j q 1).val = (q ⟨0, by decide⟩).val :=
  dot_S1000x512_S512x512_S1000x512_1_0_0_1_n_n.lhsIdx_val_of_single rfl j q
theorem rhs_0 (j : S1000x512.Idx) (q : dot_S1000x512_S512x512_S1000x512_1_0_0_1_n_n.contr.Idx) : (dot_S1000x512_S512x512_S1000x512_1_0_0_1_n_n.rhsIdx j q 0).val = (q ⟨0, by decide⟩).val :=
  dot_S1000x512_S512x512_S1000x512_1_0_0_1_n_n.rhsIdx_val_of_single rfl j q
theorem rhs_1 (j : S1000x512.Idx) (q : dot_S1000x512_S512x512_S1000x512_1_0_0_1_n_n.contr.Idx) : (dot_S1000x512_S512x512_S1000x512_1_0_0_1_n_n.rhsIdx j q 1).val = (j 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The body's stored value at entry `j` of its block: the matrix unit's product into the zero accumulator is the sum
    over the contracted axis of left block entry times right array entry. -/
theorem payload_apply (x0 : Vec Ideal S1000x512 .bf16) (x1 : Vec Ideal S512x512 .bf16) (j : S1000x512.Idx) :
    k3_pay1 (F := Ideal) x0 x1 j = ∑ k : Fin 512, (x0 (bRow j k) : EReal) * (x1 (bCol j k) : EReal) := by
  unfold k3_pay1
  rw [shapeCast_self, shapeCast_self]
  refine (Ideal.matmul_constant_zero_apply (φ₁ := FTy.bf16) (φ₂ := FTy.bf16) dot_S1000x512_S512x512_S1000x512_1_0_0_1_n_n none x0 x1 j).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx j ((ValueIdx.contrEquiv1 dot_S1000x512_S512x512_S1000x512_1_0_0_1_n_n 512 rfl rfl).symm k) = bRow j k := funext fun a => Fin.ext (by
    match a with
    | ⟨0, _⟩ => exact lhs_0 _ _
    | ⟨1, _⟩ => exact (lhs_1 _ _).trans hk)
  have er : dot_S1000x512_S512x512_S1000x512_1_0_0_1_n_n.rhsIdx j ((ValueIdx.contrEquiv1 dot_S1000x512_S512x512_S1000x512_1_0_0_1_n_n 512 rfl rfl).symm k) = bCol j k := funext fun a => Fin.ext (by
    match a with
    | ⟨0, _⟩ => exact (rhs_0 _ _).trans hk
    | ⟨1, _⟩ => exact rhs_1 _ _)
  rw [el, er]

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output window move together down the rows and stay
    at column block 0; the right window stays at block (0, 0); the output's row block is the point's number. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What point `t` writes back is block `t` of the whole product of the two arrays as the region finds them. -/
theorem flushed_eq (c : Dev nD) (t : Fin cfg3.N) :
    (dat3 V c).flushed 2 t = ((cfg3.win 2).blk t).view.read (Elt Ideal) (product (V c main_v88) (V c main_v89)) := by
  show (cfg3.win 2).cut (grid3.coords t) ((dat3 V c).after 2 t) = _
  rw [after3_2]
  unfold out3_2
  rw [View.canon_unit_zero hz]
  simp only [View.ld_unit_zero (S := S1000x512) hz, View.ld_unit_zero (S := S512x512) hz]
  obtain ⟨e0, e1, e2, e3, e4, e5⟩ := index_facts t
  funext j
  refine (payload_apply (iblk3 V c 0 t) (iblk3 V c 1 t) j).trans ?_
  show _ = product (V c main_v88) (V c main_v89) (((cfg3.win 2).blk t).view.emb j)
  unfold product
  refine Finset.sum_congr rfl fun k _ => ?_
  have hl : @Eq EReal (iblk3 V c 0 t (bRow j k)) (V c main_v88 (rowAt (((cfg3.win 2).blk t).view.emb j) k)) := by
    show @Eq EReal (V c main_v88 (((cfg3.win 0).blk t).view.emb (bRow j k))) (V c main_v88 (rowAt (((cfg3.win 2).blk t).view.emb j) k))
    refine congrArg (V c main_v88) (funext fun a => Fin.ext ?_)
    match a with
    | ⟨0, _⟩ => show win3_0.index t (0 : Fin 2) * 1000 + 1 * (j 0).val = win3_2.index t (0 : Fin 2) * 1000 + 1 * (j 0).val; omega
    | ⟨1, _⟩ => show win3_0.index t (1 : Fin 2) * 512 + 1 * k.val = k.val; omega
  have hr : @Eq EReal (iblk3 V c 1 t (bCol j k)) (V c main_v89 (colAt (((cfg3.win 2).blk t).view.emb j) k)) := by
    show @Eq EReal (V c main_v89 (((cfg3.win 1).blk t).view.emb (bCol j k))) (V c main_v89 (colAt (((cfg3.win 2).blk t).view.emb j) k))
    refine congrArg (V c main_v89) (funext fun a => Fin.ext ?_)
    match a with
    | ⟨0, _⟩ => show win3_1.index t (0 : Fin 2) * 512 + 1 * k.val = k.val; omega
    | ⟨1, _⟩ => show win3_1.index t (1 : Fin 2) * 512 + 1 * (j 1).val = win3_2.index t (1 : Fin 2) * 512 + 1 * (j 1).val; omega
  exact congrArg₂ (fun a b : EReal => a * b) hl hr

/-- An index of the output array is in point `t`'s block iff each coordinate is in the block's range on its axis. -/
theorem mem_block (t : Fin cfg3.N) (i : S10000x512.Idx) :
    i ∈ ((cfg3.win 2).blk t).view.set ↔ ∀ a : Fin 2, win3_2.index t a * S1000x512.size a ≤ (i a).val ∧ (i a).val < win3_2.index t a * S1000x512.size a + S1000x512.size a := by
  show i ∈ ((View.whole main_v90).slice (win3_2.rect t)).set ↔ _
  rw [View.set_slice_whole, Rect.mem_set_unit]
  exact Iff.rfl

/-- Every entry of the output is in some point's block: row `r` is in block `r / 1000`. -/
theorem cover (i : S10000x512.Idx) : ∃ t : Fin cfg3.N, (cfg3.win 2).flush t = true ∧ i ∈ ((cfg3.win 2).blk t).view.set := by
  have hi0 : (i 0).val < 10000 := (i 0).isLt
  have hi1 : (i 1).val < 512 := (i 1).isLt
  have hN : cfg3.N = 10 := N_3
  refine ⟨⟨(i 0).val / 1000, by rw [hN]; omega⟩, flush3_2 _, ?_⟩
  rw [mem_block]
  obtain ⟨e0, e1, e2, e3, e4, e5⟩ := index_facts ⟨(i 0).val / 1000, by rw [hN]; omega⟩
  intro a
  match a with
  | ⟨0, _⟩ =>
    show win3_2.index _ (0 : Fin 2) * 1000 ≤ (i 0).val ∧ (i 0).val < win3_2.index _ (0 : Fin 2) * 1000 + 1000
    rw [e5]; show (i 0).val / 1000 * 1000 ≤ (i 0).val ∧ (i 0).val < (i 0).val / 1000 * 1000 + 1000; omega
  | ⟨1, _⟩ =>
    show win3_2.index _ (1 : Fin 2) * 512 ≤ (i 1).val ∧ (i 1).val < win3_2.index _ (1 : Fin 2) * 512 + 512
    rw [e4]; omega

/-- THE ARRAY the region leaves in its output: the whole product of its two input arrays as it finds them. -/
theorem array_eq (c : Dev nD) :
    (dat3 V c).arrAt 2 cfg3.N = product (V c main_v88) (V c main_v89) :=
  (dat3 V c).arrAt_eq_of_cover 2 (product (V c main_v88) (V c main_v89)) (fun t _ => flushed_eq V c t) cover

end Cert.KernelIdeal.Tile3

end
-- ==== Proof.Fold4.lean ====
/-
  Layer 4 of the kernel's @main. Region 3 leaves in its output array the whole product of the two arrays it
  finds (the tiling lemma); at the region's entry those held the previous layer's activations and weight matrix 4, so the
  output is the reference's matrix product of this layer, entry by entry the same sum over the contracted axis.
  Every other buffer passes the region unchanged. The host operations that follow — gather the rows of the product at
  the message sources, scale each by its edge weight, add them up at the targets, add the bias, clamp at zero, and
  hand the next product its factors through the identity change of format — are
  operation for operation the reference's, so each buffer that is read later holds the reference's stage of the
  same value.
-/
import proofs.«142247_j68324339745256_1_alg».proof.Proof.Fold3
import proofs.«142247_j68324339745256_1_alg».proof.Proof.Tile3

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At region 3's exit -/

/-- The region's output is the reference's product stage: both are, at every entry, the sum over the contracted axis
    of left entry times right entry. -/
theorem at16_out : (W16 m ρ c (Proc.devRef .tc main_v90) : S10000x512.Idx → EReal) = Cert.ReferenceIdeal.ReadP.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W16_arr m ρ c 2).trans ?_
  refine (Cert.KernelIdeal.Tile3.array_eq (V15 m ρ) c).trans ?_
  show Cert.KernelIdeal.Tile3.product (W15 m ρ c (Proc.devRef .tc main_v88)) (W15 m ρ c (Proc.devRef .tc main_v89)) = _
  rw [at15_v88 m ρ c, at15_v89 m ρ c]
  funext i
  rw [Cert.ReferenceIdeal.ReadP.val_main_v82_apply]
  rfl

theorem at16_v3 : (W16 m ρ c (Proc.devRef .tc main_v3) : S160000.Idx → BitVec 32) = Cert.ReferenceIdeal.ReadP.val_main_v3 (F := Ideal) (m ((c : Thread nD τ).loc main_arg1)) :=
  (W16_of_ne m ρ c main_v3 (by decide)).trans (at15_v3 m ρ c)

theorem at16_v6 : (W16 m ρ c (Proc.devRef .tc main_v6) : S160000.Idx → BitVec 32) = Cert.ReferenceIdeal.ReadP.val_main_v6 (F := Ideal) (m ((c : Thread nD τ).loc main_arg1)) :=
  (W16_of_ne m ρ c main_v6 (by decide)).trans (at15_v6 m ρ c)

theorem at16_v30 : (W16 m ρ c (Proc.devRef .tc main_v30) : S160000x1.Idx → EReal) = Cert.ReferenceIdeal.ReadP.val_main_v30 (F := Ideal) (m ((c : Thread nD τ).loc main_arg1)) :=
  (W16_of_ne m ρ c main_v30 (by decide)).trans (at15_v30 m ρ c)

theorem at16_arg2 : (W16 m ρ c (Proc.devRef .tc main_arg2) : S10000.Idx → BitVec 32) = (m ((c : Thread nD τ).loc main_arg2)) :=
  (W16_of_ne m ρ c main_arg2 (by decide)).trans (at15_arg2 m ρ c)

theorem at16_arg10 : (W16 m ρ c (Proc.devRef .tc main_arg10) : S512.Idx → EReal) = (m ((c : Thread nD τ).loc main_arg10)) :=
  (W16_of_ne m ρ c main_arg10 (by decide)).trans (at15_arg10 m ρ c)

theorem at16_arg11 : (W16 m ρ c (Proc.devRef .tc main_arg11) : S512x128.Idx → EReal) = (m ((c : Thread nD τ).loc main_arg11)) :=
  (W16_of_ne m ρ c main_arg11 (by decide)).trans (at15_arg11 m ρ c)

theorem at16_arg12 : (W16 m ρ c (Proc.devRef .tc main_arg12) : S128.Idx → EReal) = (m ((c : Thread nD τ).loc main_arg12)) :=
  (W16_of_ne m ρ c main_arg12 (by decide)).trans (at15_arg12 m ρ c)

/-! ## At region 4's entry -/

theorem at19_v3 : (W19 m ρ c (Proc.devRef .tc main_v3) : S160000.Idx → BitVec 32) = Cert.ReferenceIdeal.ReadP.val_main_v3 (F := Ideal) (m ((c : Thread nD τ).loc main_arg1)) := by
  have h := at16_v3 m ρ c
  show StableHlo.after hostOps4_2 (StableHlo.after hostOps4_1 (StableHlo.after hostOps4 (W16 m ρ c))) (Proc.devRef .tc main_v3) = _
  generalize W16 m ρ c = V at h ⊢
  after_results_simp
  exact h

theorem at19_v6 : (W19 m ρ c (Proc.devRef .tc main_v6) : S160000.Idx → BitVec 32) = Cert.ReferenceIdeal.ReadP.val_main_v6 (F := Ideal) (m ((c : Thread nD τ).loc main_arg1)) := by
  have h := at16_v6 m ρ c
  show StableHlo.after hostOps4_2 (StableHlo.after hostOps4_1 (StableHlo.after hostOps4 (W16 m ρ c))) (Proc.devRef .tc main_v6) = _
  generalize W16 m ρ c = V at h ⊢
  after_results_simp
  exact h

theorem at19_v30 : (W19 m ρ c (Proc.devRef .tc main_v30) : S160000x1.Idx → EReal) = Cert.ReferenceIdeal.ReadP.val_main_v30 (F := Ideal) (m ((c : Thread nD τ).loc main_arg1)) := by
  have h := at16_v30 m ρ c
  show StableHlo.after hostOps4_2 (StableHlo.after hostOps4_1 (StableHlo.after hostOps4 (W16 m ρ c))) (Proc.devRef .tc main_v30) = _
  generalize W16 m ρ c = V at h ⊢
  after_results_simp
  exact h

theorem at19_arg2 : (W19 m ρ c (Proc.devRef .tc main_arg2) : S10000.Idx → BitVec 32) = (m ((c : Thread nD τ).loc main_arg2)) := by
  have h := at16_arg2 m ρ c
  show StableHlo.after hostOps4_2 (StableHlo.after hostOps4_1 (StableHlo.after hostOps4 (W16 m ρ c))) (Proc.devRef .tc main_arg2) = _
  generalize W16 m ρ c = V at h ⊢
  after_results_simp
  exact h

theorem at19_arg12 : (W19 m ρ c (Proc.devRef .tc main_arg12) : S128.Idx → EReal) = (m ((c : Thread nD τ).loc main_arg12)) := by
  have h := at16_arg12 m ρ c
  show StableHlo.after hostOps4_2 (StableHlo.after hostOps4_1 (StableHlo.after hostOps4 (W16 m ρ c))) (Proc.devRef .tc main_arg12) = _
  generalize W16 m ρ c = V at h ⊢
  after_results_simp
  exact h

/-- The next product's left factor: this layer's activations, the reference's stage of the same name. -/
theorem at19_v107 : (W19 m ρ c (Proc.devRef .tc main_v107) : S10000x512.Idx → EReal) = Cert.ReferenceIdeal.ReadP.val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have ho := at16_out m ρ c
  have h3 := at16_v3 m ρ c
  have h6 := at16_v6 m ρ c
  have h30 := at16_v30 m ρ c
  have hb := at16_arg10 m ρ c
  show StableHlo.after hostOps4_2 (StableHlo.after hostOps4_1 (StableHlo.after hostOps4 (W16 m ρ c))) (Proc.devRef .tc main_v107) = _
  generalize W16 m ρ c = V at ho h3 h6 h30 hb ⊢
  after_results_simp
  simp only [cast_eq]
  rw [ho, h3, h6, h30, hb]
  refine (format_id _ _).trans ?_
  rfl

/-- The next product's right factor: weight matrix 5, as launched. -/
theorem at19_v108 : (W19 m ρ c (Proc.devRef .tc main_v108) : S512x128.Idx → EReal) = (m ((c : Thread nD τ).loc main_arg11)) := by
  have hw := at16_arg11 m ρ c
  show StableHlo.after hostOps4_2 (StableHlo.after hostOps4_1 (StableHlo.after hostOps4 (W16 m ρ c))) (Proc.devRef .tc main_v108) = _
  generalize W16 m ρ c = V at hw ⊢
  after_results_simp
  rw [hw]
  rfl

end Cert.KernelIdeal.Fold

end
-- ==== Proof.Tile4.lean ====
/-
  Region 4 of the kernel's @main is a matrix product tiled over rows. Its grid has ten points; point `t` fetches
  rows 1000·t … 1000·t + 999 of the left array (all 512 columns), the whole right array (512 × 128), multiplies them on
  the matrix unit into a zero accumulator, and writes the 1000 × 128 result back as rows 1000·t … 1000·t + 999 of the
  output. At the ideal instance an entry of a block product is the plain sum over the contracted axis, so the entry
  (r, q) of the output array ends at  ∑ₖ A(r, k) · B(k, q)  — the sum that defines the whole product A · B — whatever
  the region finds in its two input arrays. The ten row blocks tile the 10000 rows, so this holds at every entry.
-/
import proofs.«142247_j68324339745256_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Tile4

open Cert.KernelIdeal Cert.KernelIdeal.Gen Idealize.ShloMosaic Idealize.ShloMosaic.TcCoe Idealize.SL.Sem
open Idealize.ShloMosaic.Pipeline (Dat)

/-! ## The product, entry by entry -/

/-- The left factor's index (row of `i`, column `k`). -/
abbrev rowAt (i : S10000x128.Idx) (k : Fin 512) : S10000x512.Idx := fun a => match a with
  | ⟨0, _⟩ => ⟨(i 0).val, (i 0).isLt⟩
  | ⟨1, _⟩ => ⟨k.val, k.isLt⟩
/-- The right factor's index (row `k`, column of `i`). -/
abbrev colAt (i : S10000x128.Idx) (k : Fin 512) : S512x128.Idx := fun a => match a with
  | ⟨0, _⟩ => ⟨k.val, k.isLt⟩
  | ⟨1, _⟩ => ⟨(i 1).val, (i 1).isLt⟩

/-- The whole product A · B of a 10000 × 512 array and a 512 × 128 array: entry `i` is ∑ₖ A(i₀, k) · B(k, i₁). -/
def product (A : S10000x512.Idx → EReal) (B : S512x128.Idx → EReal) : S10000x128.Idx → EReal :=
  fun i => ∑ k : Fin 512, A (rowAt i k) * B (colAt i k)

/-! ## One block product at an entry -/

/-- Inside a block: the left block's index (row of `j`, column `k`) and the right array's (row `k`, column of `j`). -/
abbrev bRow (j : S1000x128.Idx) (k : Fin 512) : S1000x512.Idx := fun a => match a with
  | ⟨0, _⟩ => ⟨(j 0).val, (j 0).isLt⟩
  | ⟨1, _⟩ => ⟨k.val, k.isLt⟩
abbrev bCol (j : S1000x128.Idx) (k : Fin 512) : S512x128.Idx := fun a => match a with
  | ⟨0, _⟩ => ⟨k.val, k.isLt⟩
  | ⟨1, _⟩ => ⟨(j 1).val, (j 1).isLt⟩

theorem lhs_0 (j : S1000x128.Idx) (q : dot_S1000x512_S512x128_S1000x128_1_0_0_1_n_n.contr.Idx) : (dot_S1000x512_S512x128_S1000x128_1_0_0_1_n_n.lhsIdx j q 0).val = (j 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
theorem lhs_1 (j : S1000x128.Idx) (q : dot_S1000x512_S512x128_S1000x128_1_0_0_1_n_n.contr.Idx) : (dot_S1000x512_S512x128_S1000x128_1_0_0_1_n_n.lhsIdx j q 1).val = (q ⟨0, by decide⟩).val :=
  dot_S1000x512_S512x128_S1000x128_1_0_0_1_n_n.lhsIdx_val_of_single rfl j q
theorem rhs_0 (j : S1000x128.Idx) (q : dot_S1000x512_S512x128_S1000x128_1_0_0_1_n_n.contr.Idx) : (dot_S1000x512_S512x128_S1000x128_1_0_0_1_n_n.rhsIdx j q 0).val = (q ⟨0, by decide⟩).val :=
  dot_S1000x512_S512x128_S1000x128_1_0_0_1_n_n.rhsIdx_val_of_single rfl j q
theorem rhs_1 (j : S1000x128.Idx) (q : dot_S1000x512_S512x128_S1000x128_1_0_0_1_n_n.contr.Idx) : (dot_S1000x512_S512x128_S1000x128_1_0_0_1_n_n.rhsIdx j q 1).val = (j 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- The body's stored value at entry `j` of its block: the matrix unit's product into the zero accumulator is the sum
    over the contracted axis of left block entry times right array entry. -/
theorem payload_apply (x0 : Vec Ideal S1000x512 .bf16) (x1 : Vec Ideal S512x128 .bf16) (j : S1000x128.Idx) :
    k4_pay1 (F := Ideal) x0 x1 j = ∑ k : Fin 512, (x0 (bRow j k) : EReal) * (x1 (bCol j k) : EReal) := by
  unfold k4_pay1
  rw [shapeCast_self, shapeCast_self]
  refine (Ideal.matmul_constant_zero_apply (φ₁ := FTy.bf16) (φ₂ := FTy.bf16) dot_S1000x512_S512x128_S1000x128_1_0_0_1_n_n none x0 x1 j).trans ?_
  rw [← Equiv.sum_comp (ValueIdx.contrEquiv1 dot_S1000x512_S512x128_S1000x128_1_0_0_1_n_n 512 rfl rfl).symm]
  refine Finset.sum_congr rfl fun k _ => ?_
  have hk := ValueIdx.contrEquiv1_symm_val dot_S1000x512_S512x128_S1000x128_1_0_0_1_n_n 512 rfl rfl k
  have el : dot_S1000x512_S512x128_S1000x128_1_0_0_1_n_n.lhsIdx j ((ValueIdx.contrEquiv1 dot_S1000x512_S512x128_S1000x128_1_0_0_1_n_n 512 rfl rfl).symm k) = bRow j k := funext fun a => Fin.ext (by
    match a with
    | ⟨0, _⟩ => exact lhs_0 _ _
    | ⟨1, _⟩ => exact (lhs_1 _ _).trans hk)
  have er : dot_S1000x512_S512x128_S1000x128_1_0_0_1_n_n.rhsIdx j ((ValueIdx.contrEquiv1 dot_S1000x512_S512x128_S1000x128_1_0_0_1_n_n 512 rfl rfl).symm k) = bCol j k := funext fun a => Fin.ext (by
    match a with
    | ⟨0, _⟩ => exact (rhs_0 _ _).trans hk
    | ⟨1, _⟩ => exact rhs_1 _ _)
  rw [el, er]

/-! ## From the ten row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the output window move together down the rows and stay
    at column block 0; the right window stays at block (0, 0); the output's row block is the point's number. -/
theorem index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- What point `t` writes back is block `t` of the whole product of the two arrays as the region finds them. -/
theorem flushed_eq (c : Dev nD) (t : Fin cfg4.N) :
    (dat4 V c).flushed 2 t = ((cfg4.win 2).blk t).view.read (Elt Ideal) (product (V c main_v107) (V c main_v108)) := by
  show (cfg4.win 2).cut (grid4.coords t) ((dat4 V c).after 2 t) = _
  rw [after4_2]
  unfold out4_2
  rw [View.canon_unit_zero hz]
  simp only [View.ld_unit_zero (S := S1000x512) hz, View.ld_unit_zero (S := S512x128) hz]
  obtain ⟨e0, e1, e2, e3, e4, e5⟩ := index_facts t
  funext j
  refine (payload_apply (iblk4 V c 0 t) (iblk4 V c 1 t) j).trans ?_
  show _ = product (V c main_v107) (V c main_v108) (((cfg4.win 2).blk t).view.emb j)
  unfold product
  refine Finset.sum_congr rfl fun k _ => ?_
  have hl : @Eq EReal (iblk4 V c 0 t (bRow j k)) (V c main_v107 (rowAt (((cfg4.win 2).blk t).view.emb j) k)) := by
    show @Eq EReal (V c main_v107 (((cfg4.win 0).blk t).view.emb (bRow j k))) (V c main_v107 (rowAt (((cfg4.win 2).blk t).view.emb j) k))
    refine congrArg (V c main_v107) (funext fun a => Fin.ext ?_)
    match a with
    | ⟨0, _⟩ => show win4_0.index t (0 : Fin 2) * 1000 + 1 * (j 0).val = win4_2.index t (0 : Fin 2) * 1000 + 1 * (j 0).val; omega
    | ⟨1, _⟩ => show win4_0.index t (1 : Fin 2) * 512 + 1 * k.val = k.val; omega
  have hr : @Eq EReal (iblk4 V c 1 t (bCol j k)) (V c main_v108 (colAt (((cfg4.win 2).blk t).view.emb j) k)) := by
    show @Eq EReal (V c main_v108 (((cfg4.win 1).blk t).view.emb (bCol j k))) (V c main_v108 (colAt (((cfg4.win 2).blk t).view.emb j) k))
    refine congrArg (V c main_v108) (funext fun a => Fin.ext ?_)
    match a with
    | ⟨0, _⟩ => show win4_1.index t (0 : Fin 2) * 512 + 1 * k.val = k.val; omega
    | ⟨1, _⟩ => show win4_1.index t (1 : Fin 2) * 128 + 1 * (j 1).val = win4_2.index t (1 : Fin 2) * 128 + 1 * (j 1).val; omega
  exact congrArg₂ (fun a b : EReal => a * b) hl hr

/-- An index of the output array is in point `t`'s block iff each coordinate is in the block's range on its axis. -/
theorem mem_block (t : Fin cfg4.N) (i : S10000x128.Idx) :
    i ∈ ((cfg4.win 2).blk t).view.set ↔ ∀ a : Fin 2, win4_2.index t a * S1000x128.size a ≤ (i a).val ∧ (i a).val < win4_2.index t a * S1000x128.size a + S1000x128.size a := by
  show i ∈ ((View.whole main_v109).slice (win4_2.rect t)).set ↔ _
  rw [View.set_slice_whole, Rect.mem_set_unit]
  exact Iff.rfl

/-- Every entry of the output is in some point's block: row `r` is in block `r / 1000`. -/
theorem cover (i : S10000x128.Idx) : ∃ t : Fin cfg4.N, (cfg4.win 2).flush t = true ∧ i ∈ ((cfg4.win 2).blk t).view.set := by
  have hi0 : (i 0).val < 10000 := (i 0).isLt
  have hi1 : (i 1).val < 128 := (i 1).isLt
  have hN : cfg4.N = 10 := N_4
  refine ⟨⟨(i 0).val / 1000, by rw [hN]; omega⟩, flush4_2 _, ?_⟩
  rw [mem_block]
  obtain ⟨e0, e1, e2, e3, e4, e5⟩ := index_facts ⟨(i 0).val / 1000, by rw [hN]; omega⟩
  intro a
  match a with
  | ⟨0, _⟩ =>
    show win4_2.index _ (0 : Fin 2) * 1000 ≤ (i 0).val ∧ (i 0).val < win4_2.index _ (0 : Fin 2) * 1000 + 1000
    rw [e5]; show (i 0).val / 1000 * 1000 ≤ (i 0).val ∧ (i 0).val < (i 0).val / 1000 * 1000 + 1000; omega
  | ⟨1, _⟩ =>
    show win4_2.index _ (1 : Fin 2) * 128 ≤ (i 1).val ∧ (i 1).val < win4_2.index _ (1 : Fin 2) * 128 + 128
    rw [e4]; omega

/-- THE ARRAY the region leaves in its output: the whole product of its two input arrays as it finds them. -/
theorem array_eq (c : Dev nD) :
    (dat4 V c).arrAt 2 cfg4.N = product (V c main_v107) (V c main_v108) :=
  (dat4 V c).arrAt_eq_of_cover 2 (product (V c main_v107) (V c main_v108)) (fun t _ => flushed_eq V c t) cover

end Cert.KernelIdeal.Tile4

end
-- ==== Proof.Fold5.lean ====
/-
  Layer 5 of the kernel's @main. Region 4 leaves in its output array the whole product of the two arrays it
  finds (the tiling lemma); at the region's entry those held the previous layer's activations and weight matrix 5, so the
  output is the reference's matrix product of this layer, entry by entry the same sum over the contracted axis.
  Every other buffer passes the region unchanged. The host operations that follow — gather the rows of the product at
  the message sources, scale each by its edge weight, add them up at the targets, add the bias, clamp at zero, then
  average the rows of each graph: sum them by graph id and divide by the larger of the graph's node count and one — are
  operation for operation the reference's, so each buffer that is read later holds the reference's stage of the
  same value.
-/
import proofs.«142247_j68324339745256_1_alg».proof.Proof.Fold4
import proofs.«142247_j68324339745256_1_alg».proof.Proof.Tile4

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At region 4's exit -/

/-- The region's output is the reference's product stage: both are, at every entry, the sum over the contracted axis
    of left entry times right entry. -/
theorem at20_out : (W20 m ρ c (Proc.devRef .tc main_v109) : S10000x128.Idx → EReal) = Cert.ReferenceIdeal.ReadP.val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W20_arr m ρ c 2).trans ?_
  refine (Cert.KernelIdeal.Tile4.array_eq (V19 m ρ) c).trans ?_
  show Cert.KernelIdeal.Tile4.product (W19 m ρ c (Proc.devRef .tc main_v107)) (W19 m ρ c (Proc.devRef .tc main_v108)) = _
  rw [at19_v107 m ρ c, at19_v108 m ρ c]
  funext i
  rw [Cert.ReferenceIdeal.ReadP.val_main_v99_apply]
  rfl

theorem at20_v3 : (W20 m ρ c (Proc.devRef .tc main_v3) : S160000.Idx → BitVec 32) = Cert.ReferenceIdeal.ReadP.val_main_v3 (F := Ideal) (m ((c : Thread nD τ).loc main_arg1)) :=
  (W20_of_ne m ρ c main_v3 (by decide)).trans (at19_v3 m ρ c)

theorem at20_v6 : (W20 m ρ c (Proc.devRef .tc main_v6) : S160000.Idx → BitVec 32) = Cert.ReferenceIdeal.ReadP.val_main_v6 (F := Ideal) (m ((c : Thread nD τ).loc main_arg1)) :=
  (W20_of_ne m ρ c main_v6 (by decide)).trans (at19_v6 m ρ c)

theorem at20_v30 : (W20 m ρ c (Proc.devRef .tc main_v30) : S160000x1.Idx → EReal) = Cert.ReferenceIdeal.ReadP.val_main_v30 (F := Ideal) (m ((c : Thread nD τ).loc main_arg1)) :=
  (W20_of_ne m ρ c main_v30 (by decide)).trans (at19_v30 m ρ c)

theorem at20_arg2 : (W20 m ρ c (Proc.devRef .tc main_arg2) : S10000.Idx → BitVec 32) = (m ((c : Thread nD τ).loc main_arg2)) :=
  (W20_of_ne m ρ c main_arg2 (by decide)).trans (at19_arg2 m ρ c)

theorem at20_arg12 : (W20 m ρ c (Proc.devRef .tc main_arg12) : S128.Idx → EReal) = (m ((c : Thread nD τ).loc main_arg12)) :=
  (W20_of_ne m ρ c main_arg12 (by decide)).trans (at19_arg12 m ρ c)

/-! ## At @main's return -/

/-- The result buffer holds the reference's result stage of the launch arguments. -/
theorem at23_result : (W23 m ρ c (Proc.devRef .tc main_v137) : S64x128.Idx → EReal) = Cert.ReferenceIdeal.ReadP.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have ho := at20_out m ρ c
  have h3 := at20_v3 m ρ c
  have h6 := at20_v6 m ρ c
  have h30 := at20_v30 m ρ c
  have hb := at20_arg12 m ρ c
  have hg := at20_arg2 m ρ c
  show StableHlo.after hostOps5_2 (StableHlo.after hostOps5_1 (StableHlo.after hostOps5 (W20 m ρ c))) (Proc.devRef .tc main_v137) = _
  generalize W20 m ρ c = V at ho h3 h6 h30 hb hg ⊢
  after_results_simp
  simp only [cast_eq]
  rw [ho, h3, h6, h30, hb, hg]
  rfl

end Cert.KernelIdeal.Fold

end
-- ==== Proof.lean ====
/-
  The kernel is a five-layer graph convolution followed by a mean over each graph's nodes; its reference is the same
  jax program with each layer's dense product  h · W  written as one matrix product, where the kernel tiles it over
  row blocks of 1000 on the matrix unit with both factors passed through a change of float format.

  On the extended reals a change of float format is the identity and a block product into a zero accumulator is, entry by
  entry, the plain sum over the contracted axis. Each region's ten row blocks tile its output, so the region leaves
  the whole product  ∑ₖ h(r, k) · W(k, q)  in its output array (Proof/Tile0 … Tile4) — the very sum the reference's
  product denotes at that entry; no rearrangement of sums is involved and no finiteness is used. Everything else in
  the two programs — self-loops, degrees, edge weights, gather, scale, scatter-add, bias, clamp at zero, the final
  per-graph mean — is the same host operations on both sides and is never opened: the fold through the kernel's @main
  (Proof/Fold0 … Fold5) shows, boundary by boundary, that each buffer read later holds the reference's stage of the
  same value, and the result buffer ends at the reference's result stage of the launch arguments. The kernel's run
  with its result buffer named is Proof/KernelRun; the reference's run and its stages are Proof/RefRun and
  Proof/RefRead. The three frames are the generated frame certificates (the reference's is its run with the result
  forgotten), and the idealization rewrote nothing, so `preserves` is `True`.
-/
import proofs.«142247_j68324339745256_1_alg».proof.Defs
import proofs.«142247_j68324339745256_1_alg».proof.Proof.Gen.Kernel
import proofs.«142247_j68324339745256_1_alg».proof.Proof.Gen.Kernel.Frame
import proofs.«142247_j68324339745256_1_alg».proof.Proof.Gen.KernelIdeal
import proofs.«142247_j68324339745256_1_alg».proof.Proof.Gen.KernelIdeal.Frame
import proofs.«142247_j68324339745256_1_alg».proof.Proof.Gen.ReferenceIdeal
import proofs.«142247_j68324339745256_1_alg».proof.Proof.Gen.Pre_finite_inputs
import proofs.«142247_j68324339745256_1_alg».proof.Proof.KernelRun
import proofs.«142247_j68324339745256_1_alg».proof.Proof.RefRead
import proofs.«142247_j68324339745256_1_alg».proof.Proof.Fold5
import Idealize.ShloMosaic.Adequacy
import Idealize.ShloMosaic.Init

set_option maxRecDepth 16384

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts] [hPre_finite_inputs : Cert.Pre_finite_inputs.Facts]

theorem frame_kernel : Cert.frame_Kernel := fun m ρ _ => Cert.Kernel.Gen.frame m ρ

theorem frame_ideal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the result at the reference's result stage of the kernel's launch arguments: the kernel by
    the fold through its @main, the reference by its own run, its arguments being the kernel's. -/
theorem algebraic : Cert.algebraic_KernelIdeal_ReferenceIdeal := by
  intro m ρ m' ρ' _ hagree
  refine ⟨fun c => Cert.ReferenceIdeal.ReadP.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.at23_result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v127_eq, e0, e1, e2, e3, e4, e5, e6, e7, e8, e9, e10, e11, e12]

end

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
